-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x3200000 : Shape := ⟨2, ![2, 3200000]⟩
abbrev S5x64 : Shape := ⟨2, ![5, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S64 .f32) (main_arg6 : FVec F S64x2 .f32) (main_arg7 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg6
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x5 .f32) (main_arg1 : IVec S2x3200000 32) (main_arg2 : FVec F S5x64 .f32) (main_arg3 : FVec F S64 .f32) (main_arg4 : FVec F S64x64 .f32) (main_arg5 : FVec F S64 .f32) (main_arg6 : FVec F S64x2 .f32) (main_arg7 : FVec F S2 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S5x64 .f32 := Host.absf main_arg2
  let main_cst_0 : FVec F S_ .f32 := constant S_ .f32 0x7F800000#32
  let main_v5 : FVec F S5x64 .f32 := broadcastInDim S5x64 ![] bcast_S_S5x64 main_cst_0
  let main_v6 : IVec S5x64 1 := cmpf .olt main_v4 main_v5
  let main_c_1 : IVec S_ 1 := constantI S_ 1 1#1
  let main_v7 : IVec S_ 1 := (fun x v => Host.reduce IntOp.andi x v reducesTo_S5x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x5 : Shape := ⟨2, ![100000, 5]⟩
abbrev S2x3200000 : Shape := ⟨2, ![2, 3200000]⟩
abbrev S5x64 : Shape := ⟨2, ![5, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x64 : Shape := ⟨2, ![100000, 64]⟩
abbrev S5000x5 : Shape := ⟨2, ![5000, 5]⟩
abbrev S5000x64 : Shape := ⟨2, ![5000, 64]⟩
abbrev S3200000x64 : Shape := ⟨2, ![3200000, 64]⟩
abbrev S1x64 : Shape := ⟨2, ![1, 64]⟩
abbrev S100000x1 : Shape := ⟨2, ![100000, 1]⟩
abbrev S5000x1 : Shape := ⟨2, ![5000, 1]⟩
abbrev S100000x2 : Shape := ⟨2, ![100000, 2]⟩
abbrev S5000x2 : Shape := ⟨2, ![5000, 2]⟩
abbrev S3200000x2 : Shape := ⟨2, ![3200000, 2]⟩
abbrev S1x2 : Shape := ⟨2, ![1, 2]⟩

abbrev nBuf : Space → Nat
  | .hbm => 110
  | .vmem => 34
  | .smem => 0
  | _ => 0

abbrev bufTy : (tb : Table) → Fin (tcTables nBuf tb) → BufTy
  | .hbm, ⟨0, _⟩ => ⟨S100000x5, .f32⟩
  | .hbm, ⟨1, _⟩ => ⟨S2x3200000, .i32⟩
  | .hbm, ⟨2, _⟩ => ⟨S5x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x2, .f32⟩
  | .hbm, ⟨7, _⟩ => ⟨S2, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S100000, .f32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S_, .f32⟩
  | .hbm, ⟨23, _⟩ => ⟨S3200000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000, .f32⟩
  | .hbm, ⟨44, _⟩ => ⟨S3200000, .f32⟩
  | .hbm, ⟨45, _⟩ => ⟨S100000, .f32⟩
  | .hbm, ⟨46, _⟩ => ⟨S100000x64, .f32⟩
  | .hbm, ⟨47, _⟩ => ⟨S100000x64, .bf16⟩
  | .hbm, ⟨48, _⟩ => ⟨S_, .i32⟩
  | .hbm, ⟨49, _⟩ => ⟨S3200000, .i32⟩
  | .hbm, ⟨50, _⟩ => ⟨S3200000, .i1⟩
  | .hbm, ⟨51, _⟩ => ⟨S_, .i32⟩
  | .hbm, ⟨52, _⟩ => ⟨S3200000, .i32⟩
  | .hbm, ⟨53, _⟩ => ⟨S3200000, .i32⟩
  | .hbm, ⟨54, _⟩ => ⟨S3200000, .i32⟩
  | .hbm, ⟨55, _⟩ => ⟨S3200000x1, .i32⟩
  | .hbm, ⟨56, _⟩ => ⟨S3200000x64, .bf16⟩
  | .hbm, ⟨57, _⟩ => ⟨S3200000x64, .f32⟩
  | .hbm, ⟨58, _⟩ => ⟨S3200000x1, .f32⟩
  | .hbm, ⟨59, _⟩ => ⟨S3200000x64, .f32⟩
  | .hbm, ⟨60, _⟩ => ⟨S3200000x64, .f32⟩
  | .hbm, ⟨61, _⟩ => ⟨S_, .f32⟩
  | .hbm, ⟨62, _⟩ => ⟨S100000x64, .f32⟩
  | .hbm, ⟨63, _⟩ => ⟨S3200000x1, .i32⟩
  | .hbm, ⟨64, _⟩ => ⟨S100000x64, .f32⟩
  | .hbm, ⟨65, _⟩ => ⟨S1x64, .f32⟩
  | .hbm, ⟨66, _⟩ => ⟨S100000x1, .f32⟩
  | .hbm, ⟨67, _⟩ => ⟨S100000x64, .f32⟩
  | .hbm, ⟨68, _⟩ => ⟨S100000x64, .bf16⟩
  | .hbm, ⟨69, _⟩ => ⟨S_, .i32⟩
  | .hbm, ⟨70, _⟩ => ⟨S3200000, .i32⟩
  | .hbm, ⟨71, _⟩ => ⟨S3200000, .i1⟩
  | .hbm, ⟨72, _⟩ => ⟨S_, .i32⟩
  | .hbm, ⟨73, _⟩ => ⟨S3200000, .i32⟩
  | .hbm, ⟨74, _⟩ => ⟨S3200000, .i32⟩
  | .hbm, ⟨75, _⟩ => ⟨S3200000, .i32⟩
  | .hbm, ⟨76, _⟩ => ⟨S3200000x1, .i32⟩
  | .hbm, ⟨77, _⟩ => ⟨S3200000x64, .bf16⟩
  | .hbm, ⟨78, _⟩ => ⟨S3200000x64, .f32⟩
  | .hbm, ⟨79, _⟩ => ⟨S3200000x1, .f32⟩
  | .hbm, ⟨80, _⟩ => ⟨S3200000x64, .f32⟩
  | .hbm, ⟨81, _⟩ => ⟨S3200000x64, .f32⟩
  | .hbm, ⟨82, _⟩ => ⟨S_, .f32⟩
  | .hbm, ⟨83, _⟩ => ⟨S100000x64, .f32⟩
  | .hbm, ⟨84, _⟩ => ⟨S3200000x1, .i32⟩
  | .hbm, ⟨85, _⟩ => ⟨S100000x64, .f32⟩
  | .hbm, ⟨86, _⟩ => ⟨S1x64, .f32⟩
  | .hbm, ⟨87, _⟩ => ⟨S100000x1, .f32⟩
  | .hbm, ⟨88, _⟩ => ⟨S100000x2, .f32⟩
  | .hbm, ⟨89, _⟩ => ⟨S100000x2, .bf16⟩
  | .hbm, ⟨90, _⟩ => ⟨S_, .i32⟩
  | .hbm, ⟨91, _⟩ => ⟨S3200000, .i32⟩
  | .hbm, ⟨92, _⟩ => ⟨S3200000, .i1⟩
  | .hbm, ⟨93, _⟩ => ⟨S_, .i32⟩
  | .hbm, ⟨94, _⟩ => ⟨S3200000, .i32⟩
  | .hbm, ⟨95, _⟩ => ⟨S3200000, .i32⟩
  | .hbm, ⟨96, _⟩ => ⟨S3200000, .i32⟩
  | .hbm, ⟨97, _⟩ => ⟨S3200000x1, .i32⟩
  | .hbm, ⟨98, _⟩ => ⟨S3200000x2, .bf16⟩
  | .hbm, ⟨99, _⟩ => ⟨S3200000x2, .f32⟩
  | .hbm, ⟨100, _⟩ => ⟨S3200000x1, .f32⟩
  | .hbm, ⟨101, _⟩ => ⟨S3200000x2, .f32⟩
  | .hbm, ⟨102, _⟩ => ⟨S3200000x2, .f32⟩
  | .hbm, ⟨103, _⟩ => ⟨S_, .f32⟩
  | .hbm, ⟨104, _⟩ => ⟨S100000x2, .f32⟩
  | .hbm, ⟨105, _⟩ => ⟨S3200000x1, .i32⟩
  | .hbm, ⟨106, _⟩ => ⟨S100000x2, .f32⟩
  | .hbm, ⟨107, _⟩ => ⟨S1x2, .f32⟩
  | .hbm, ⟨108, _⟩ => ⟨S100000x1, .f32⟩
  | .hbm, ⟨109, _⟩ => ⟨S100000x2, .f32⟩
  | .local _ .vmem, ⟨0, _⟩ => ⟨S5000x5, .f32⟩
  | .local _ .vmem, ⟨1, _⟩ => ⟨S5000x5, .f32⟩
  | .local _ .vmem, ⟨2, _⟩ => ⟨S5x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S64x2, .f32⟩
  | .local _ .vmem, ⟨23, _⟩ => ⟨S5000x2, .f32⟩
  | .local _ .vmem, ⟨24, _⟩ => ⟨S5000x2, .f32⟩
  | .local _ .vmem, ⟨25, _⟩ => ⟨S5000x2, .f32⟩
  | .local _ .vmem, ⟨26, _⟩ => ⟨S5000x2, .f32⟩
  | .local _ .vmem, ⟨27, _⟩ => ⟨S5000x2, .f32⟩
  | .local _ .vmem, ⟨28, _⟩ => ⟨S5000x2, .f32⟩
  | .local _ .vmem, ⟨29, _⟩ => ⟨S5000x1, .f32⟩
  | .local _ .vmem, ⟨30, _⟩ => ⟨S5000x1, .f32⟩
  | .local _ .vmem, ⟨31, _⟩ => ⟨S1x2, .f32⟩
  | .local _ .vmem, ⟨32, _⟩ => ⟨S5000x2, .f32⟩
  | .local _ .vmem, ⟨33, _⟩ => ⟨S5000x2, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_12 : Ref sig .tc := ⟨.hbm, 90, rfl⟩
abbrev main_v68 : Ref sig .tc := ⟨.hbm, 91, rfl⟩
abbrev main_v69 : Ref sig .tc := ⟨.hbm, 92, rfl⟩
abbrev main_c_13 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_14 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x2 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  inb_S5000x5_S5000x5_0_0 : ∀ a, (![0, 0] : Fin 2 → Nat) a + S5000x5.size a ≤ S5000x5.size a
  h_S5000x5 : 0 < S5000x5.numel
  bitsLt_bf16_f32 : FTy.bits .bf16 < FTy.bits .f32
  inb_S5x64_S5x64_0_0 : ∀ a, (![0, 0] : Fin 2 → Nat) a + S5x64.size a ≤ S5x64.size a
  h_S5x64 : 0 < S5x64.numel
  inb_S5000x64_S5000x64_0_0 : ∀ a, (![0, 0] : Fin 2 → Nat) a + S5000x64.size a ≤ S5000x64.size a
  h_S5000x64 : 0 < S5000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S64_S1x64 : S64.ShapeCasts S1x64
  shapeCasts_S100000_S100000x1 : S100000.ShapeCasts S100000x1
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S64x2_S64x2_0_0 : ∀ a, (![0, 0] : Fin 2 → Nat) a + S64x2.size a ≤ S64x2.size a
  h_S64x2 : 0 < S64x2.numel
  inb_S5000x2_S5000x2_0_0 : ∀ a, (![0, 0] : Fin 2 → Nat) a + S5000x2.size a ≤ S5000x2.size a
  h_S5000x2 : 0 < S5000x2.numel
  bcast_S3200000x1_S3200000x2_0_1 : S3200000x1.BroadcastsInDim S3200000x2 (![0, 1] : Fin 2 → Fin S3200000x2.rank)
  bcast_S_S100000x2 : S_.BroadcastsInDim S100000x2 (![] : Fin 0 → Fin S100000x2.rank)
  shapeCasts_S2_S1x2 : S2.ShapeCasts S1x2
  shapeCasts_S5000x2_S5000x2 : S5000x2.ShapeCasts S5000x2
  broadcasts_S5000x1_S5000x2 : S5000x1.Broadcasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x5_S5x64_S5000x64_1_0_0_1_n_n_wf : DotDims.WF S5000x5 S5x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  dot_S5000x64_S64x2_S5000x2_1_0_0_1_n_n_wf : DotDims.WF S5000x64 S64x2 S5000x2 [1] [0] [0] [1] [] []
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S100000x5.size a
  hwx0_0 : ∀ i : grid0.Coords, EltTy.bits .f32 = 32 ∨ (Rect.block (s := S100000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64.size a ≤ S5x64.size a
  hwx0_1 : ∀ i : grid0.Coords, EltTy.bits .f32 = 32 ∨ (Rect.block (s := S5x64) S5x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x2.size a ≤ S64x2.size a
  hwx2_4 : ∀ i : grid2.Coords, EltTy.bits .f32 = 32 ∨ (Rect.block (s := S64x2) S64x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x2.size a ≤ S100000x2.size a
  hwx2_5 : ∀ i : grid2.Coords, EltTy.bits .f32 = 32 ∨ (Rect.block (s := S100000x2) S5000x2.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x2.size a ≤ S100000x2.size a
  hwx3_0 : ∀ i : grid3.Coords, EltTy.bits .f32 = 32 ∨ (Rect.block (s := S100000x2) S5000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x2.size a ≤ S100000x2.size a
  hwx3_1 : ∀ i : grid3.Coords, EltTy.bits .f32 = 32 ∨ (Rect.block (s := S100000x2) S5000x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2.size a ≤ S1x2.size a
  hwx3_3 : ∀ i : grid3.Coords, EltTy.bits .f32 = 32 ∨ (Rect.block (s := S1x2) S1x2.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x2.size a ≤ S100000x2.size a
  hwx3_4 : ∀ i : grid3.Coords, EltTy.bits .f32 = 32 ∨ (Rect.block (s := S100000x2) S5000x2.size (cc3_transform_4 i) (hinb3_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x5_S5x64_S5000x64_1_0_0_1_n_n : DotDims S5000x5 S5x64 S5000x64 where
  lhsContracting := [1]
  rhsContracting := [0]
  lhsNonContracting := [0]
  rhsNonContracting := [1]
  lhsBatch := []
  rhsBatch := []
  wf := dot_S5000x5_S5x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v63) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v65) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S64x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S5000x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v81) S5000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v66) S5000x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v83) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v82) S1x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v84) S5000x2.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x5 : Shape := ⟨2, ![100000, 5]⟩
abbrev S2x3200000 : Shape := ⟨2, ![2, 3200000]⟩
abbrev S5x64 : Shape := ⟨2, ![5, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x3200000 : Shape := ⟨2, ![1, 3200000]⟩
abbrev S3200000 : Shape := ⟨1, ![3200000]⟩
abbrev S100000x64 : Shape := ⟨2, ![100000, 64]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S100000x2 : Shape := ⟨2, ![100000, 2]⟩
abbrev S3200000x2 : Shape := ⟨2, ![3200000, 2]⟩
abbrev S1x2 : Shape := ⟨2, ![1, 2]⟩

abbrev nBuf : Space → Nat
  | .hbm => 198
  | .vmem => 0
  | .smem => 0
  | _ => 0

abbrev hbmTy0_0 (i : Nat) : BufTy := match i % 128 with
  | 0 => ⟨S100000x5, .f32⟩
  | 1 => ⟨S2x3200000, .i32⟩
  | 2 => ⟨S5x64, .f32⟩
  | 3 => ⟨S64, .f32⟩
  | 4 => ⟨S64x64, .f32⟩
  | 5 => ⟨S64, .f32⟩
  | 6 => ⟨S64x2, .f32⟩
  | 7 => ⟨S2, .f32⟩
  | 8 => ⟨S1x3200000, .i32⟩
  | 9 => ⟨S3200000, .i32⟩
  | 10 => ⟨S1x3200000, .i32⟩
  | 11 => ⟨S3200000, .i32⟩
  | 12 => ⟨S100000x64, .f32⟩
  | 13 => ⟨S_, .f32⟩
  | 14 => ⟨S100000, .f32⟩
  | 15 => ⟨S_, .i32⟩
  | 16 => ⟨S3200000, .i32⟩
  | 17 => ⟨S3200000, .i1⟩
  | 18 => ⟨S_, .i32⟩
  | 19 => ⟨S3200000, .i32⟩
  | 20 => ⟨S3200000, .i32⟩
  | 21 => ⟨S3200000, .i32⟩
  | 22 => ⟨S3200000x1, .i32⟩
  | 23 => ⟨S_, .f32⟩
  | 24 => ⟨S3200000, .f32⟩
  | 25 => ⟨S100000, .f32⟩
  | 26 => ⟨S100000, .f32⟩
  | 27 => ⟨S_, .i32⟩
  | 28 => ⟨S3200000, .i32⟩
  | 29 => ⟨S3200000, .i1⟩
  | 30 => ⟨S_, .i32⟩
  | 31 => ⟨S3200000, .i32⟩
  | 32 => ⟨S3200000, .i32⟩
  | 33 => ⟨S3200000, .i32⟩
  | 34 => ⟨S3200000x1, .i32⟩
  | 35 => ⟨S3200000, .f32⟩
  | 36 => ⟨S_, .i32⟩
  | 37 => ⟨S3200000, .i32⟩
  | 38 => ⟨S3200000, .i1⟩
  | 39 => ⟨S_, .i32⟩
  | 40 => ⟨S3200000, .i32⟩
  | 41 => ⟨S3200000, .i32⟩
  | 42 => ⟨S3200000, .i32⟩
  | 43 => ⟨S3200000x1, .i32⟩
  | 44 => ⟨S3200000, .f32⟩
  | 45 => ⟨S3200000, .f32⟩
  | 46 => ⟨S_, .i32⟩
  | 47 => ⟨S3200000, .i32⟩
  | 48 => ⟨S3200000, .i1⟩
  | 49 => ⟨S_, .i32⟩
  | 50 => ⟨S3200000, .i32⟩
  | 51 => ⟨S3200000, .i32⟩
  | 52 => ⟨S3200000, .i32⟩
  | 53 => ⟨S3200000x1, .i32⟩
  | 54 => ⟨S3200000x64, .f32⟩
  | 55 => ⟨S3200000x1, .f32⟩
  | 56 => ⟨S3200000x64, .f32⟩
  | 57 => ⟨S3200000x64, .f32⟩
  | 58 => ⟨S_, .f32⟩
  | 59 => ⟨S100000x64, .f32⟩
  | 60 => ⟨S3200000x1, .i32⟩
  | 61 => ⟨S100000x64, .f32⟩
  | 62 => ⟨S_, .f32⟩
  | 63 => ⟨S100000, .f32⟩
  | 64 => ⟨S100000, .f32⟩
  | 65 => ⟨S100000x1, .f32⟩
  | 66 => ⟨S100000x64, .f32⟩
  | 67 => ⟨S100000x64, .f32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S100000x64, .f32⟩
  | 76 => ⟨S_, .f32⟩
  | 77 => ⟨S100000, .f32⟩
  | 78 => ⟨S_, .i32⟩
  | 79 => ⟨S3200000, .i32⟩
  | 80 => ⟨S3200000, .i1⟩
  | 81 => ⟨S_, .i32⟩
  | 82 => ⟨S3200000, .i32⟩
  | 83 => ⟨S3200000, .i32⟩
  | 84 => ⟨S3200000, .i32⟩
  | 85 => ⟨S3200000x1, .i32⟩
  | 86 => ⟨S_, .f32⟩
  | 87 => ⟨S3200000, .f32⟩
  | 88 => ⟨S100000, .f32⟩
  | 89 => ⟨S100000, .f32⟩
  | 90 => ⟨S_, .i32⟩
  | 91 => ⟨S3200000, .i32⟩
  | 92 => ⟨S3200000, .i1⟩
  | 93 => ⟨S_, .i32⟩
  | 94 => ⟨S3200000, .i32⟩
  | 95 => ⟨S3200000, .i32⟩
  | 96 => ⟨S3200000, .i32⟩
  | 97 => ⟨S3200000x1, .i32⟩
  | 98 => ⟨S3200000, .f32⟩
  | 99 => ⟨S_, .i32⟩
  | 100 => ⟨S3200000, .i32⟩
  | 101 => ⟨S3200000, .i1⟩
  | 102 => ⟨S_, .i32⟩
  | 103 => ⟨S3200000, .i32⟩
  | 104 => ⟨S3200000, .i32⟩
  | 105 => ⟨S3200000, .i32⟩
  | 106 => ⟨S3200000x1, .i32⟩
  | 107 => ⟨S3200000, .f32⟩
  | 108 => ⟨S3200000, .f32⟩
  | 109 => ⟨S_, .i32⟩
  | 110 => ⟨S3200000, .i32⟩
  | 111 => ⟨S3200000, .i1⟩
  | 112 => ⟨S_, .i32⟩
  | 113 => ⟨S3200000, .i32⟩
  | 114 => ⟨S3200000, .i32⟩
  | 115 => ⟨S3200000, .i32⟩
  | 116 => ⟨S3200000x1, .i32⟩
  | 117 => ⟨S3200000x64, .f32⟩
  | 118 => ⟨S3200000x1, .f32⟩
  | 119 => ⟨S3200000x64, .f32⟩
  | 120 => ⟨S3200000x64, .f32⟩
  | 121 => ⟨S_, .f32⟩
  | 122 => ⟨S100000x64, .f32⟩
  | 123 => ⟨S3200000x1, .i32⟩
  | 124 => ⟨S100000x64, .f32⟩
  | 125 => ⟨S_, .f32⟩
  | 126 => ⟨S100000, .f32⟩
  | 127 => ⟨S100000, .f32⟩
  | _ => ⟨S100000x5, .f32⟩

abbrev hbmTy0_1 (i : Nat) : BufTy := match i % 128 with
  | 0 => ⟨S100000x1, .f32⟩
  | 1 => ⟨S100000x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S100000x2, .f32⟩
  | 11 => ⟨S_, .f32⟩
  | 12 => ⟨S100000, .f32⟩
  | 13 => ⟨S_, .i32⟩
  | 14 => ⟨S3200000, .i32⟩
  | 15 => ⟨S3200000, .i1⟩
  | 16 => ⟨S_, .i32⟩
  | 17 => ⟨S3200000, .i32⟩
  | 18 => ⟨S3200000, .i32⟩
  | 19 => ⟨S3200000, .i32⟩
  | 20 => ⟨S3200000x1, .i32⟩
  | 21 => ⟨S_, .f32⟩
  | 22 => ⟨S3200000, .f32⟩
  | 23 => ⟨S100000, .f32⟩
  | 24 => ⟨S100000, .f32⟩
  | 25 => ⟨S_, .i32⟩
  | 26 => ⟨S3200000, .i32⟩
  | 27 => ⟨S3200000, .i1⟩
  | 28 => ⟨S_, .i32⟩
  | 29 => ⟨S3200000, .i32⟩
  | 30 => ⟨S3200000, .i32⟩
  | 31 => ⟨S3200000, .i32⟩
  | 32 => ⟨S3200000x1, .i32⟩
  | 33 => ⟨S3200000, .f32⟩
  | 34 => ⟨S_, .i32⟩
  | 35 => ⟨S3200000, .i32⟩
  | 36 => ⟨S3200000, .i1⟩
  | 37 => ⟨S_, .i32⟩
  | 38 => ⟨S3200000, .i32⟩
  | 39 => ⟨S3200000, .i32⟩
  | 40 => ⟨S3200000, .i32⟩
  | 41 => ⟨S3200000x1, .i32⟩
  | 42 => ⟨S3200000, .f32⟩
  | 43 => ⟨S3200000, .f32⟩
  | 44 => ⟨S_, .i32⟩
  | 45 => ⟨S3200000, .i32⟩
  | 46 => ⟨S3200000, .i1⟩
  | 47 => ⟨S_, .i32⟩
  | 48 => ⟨S3200000, .i32⟩
  | 49 => ⟨S3200000, .i32⟩
  | 50 => ⟨S3200000, .i32⟩
  | 51 => ⟨S3200000x1, .i32⟩
  | 52 => ⟨S3200000x2, .f32⟩
  | 53 => ⟨S3200000x1, .f32⟩
  | 54 => ⟨S3200000x2, .f32⟩
  | 55 => ⟨S3200000x2, .f32⟩
  | 56 => ⟨S_, .f32⟩
  | 57 => ⟨S100000x2, .f32⟩
  | 58 => ⟨S3200000x1, .i32⟩
  | 59 => ⟨S100000x2, .f32⟩
  | 60 => ⟨S_, .f32⟩
  | 61 => ⟨S100000, .f32⟩
  | 62 => ⟨S100000, .f32⟩
  | 63 => ⟨S100000x1, .f32⟩
  | 64 => ⟨S100000x2, .f32⟩
  | 65 => ⟨S100000x2, .f32⟩
  | 66 => ⟨S100000x2, .f32⟩
  | 67 => ⟨S1x2, .f32⟩
  | 68 => ⟨S100000x2, .f32⟩
  | 69 => ⟨S100000x2, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_call0_cst : Ref sig .tc := ⟨.hbm, 72, rfl⟩
abbrev main_call0_v0 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_c_15 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_16 : Ref sig .tc := ⟨.hbm, 99, rfl⟩
abbrev main_v71 : Ref sig .tc := ⟨.hbm, 100, rfl⟩
abbrev main_v72 : Ref sig .tc := ⟨.hbm, 101, rfl⟩
abbrev main_c_17 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_18 : Ref sig .tc := ⟨.hbm, 109, rfl⟩
abbrev main_v79 : Ref sig .tc := ⟨.hbm, 110, rfl⟩
abbrev main_v80 : Ref sig .tc := ⟨.hbm, 111, rfl⟩
abbrev main_c_19 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_20 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_21 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_call1_cst : Ref sig .tc := ⟨.hbm, 135, rfl⟩
abbrev main_call1_v0 : Ref sig .tc := ⟨.hbm, 136, rfl⟩
abbrev main_v101 : Ref sig .tc := ⟨.hbm, 137, rfl⟩
abbrev main_v102 : Ref sig .tc := ⟨.hbm, 138, rfl⟩
abbrev main_cst_22 : Ref sig .tc := ⟨.hbm, 139, rfl⟩
abbrev main_v103 : Ref sig .tc := ⟨.hbm, 140, rfl⟩
abbrev main_c_23 : Ref sig .tc := ⟨.hbm, 141, rfl⟩
abbrev main_v104 : Ref sig .tc := ⟨.hbm, 142, rfl⟩
abbrev main_v105 : Ref sig .tc := ⟨.hbm, 143, rfl⟩
abbrev main_c_24 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_25 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_c_26 : Ref sig .tc := ⟨.hbm, 153, rfl⟩
abbrev main_v113 : Ref sig .tc := ⟨.hbm, 154, rfl⟩
abbrev main_v114 : Ref sig .tc := ⟨.hbm, 155, rfl⟩
abbrev main_c_27 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_c_28 : Ref sig .tc := ⟨.hbm, 162, rfl⟩
abbrev main_v120 : Ref sig .tc := ⟨.hbm, 163, rfl⟩
abbrev main_v121 : Ref sig .tc := ⟨.hbm, 164, rfl⟩
abbrev main_c_29 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_c_30 : Ref sig .tc := ⟨.hbm, 172, rfl⟩
abbrev main_v128 : Ref sig .tc := ⟨.hbm, 173, rfl⟩
abbrev main_v129 : Ref sig .tc := ⟨.hbm, 174, rfl⟩
abbrev main_c_31 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_cst_32 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_cst_33 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000x1_S3200000x2_0_1 : S3200000x1.BroadcastsInDim S3200000x2 (![0, 1] : Fin 2 → Fin S3200000x2.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x5_S5x64_S100000x64_1_0_0_1_n_n_wf : DotDims.WF S100000x5 S5x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1

variable [Facts₀]

def dot_S100000x5_S5x64_S100000x64_1_0_0_1_n_n : DotDims S100000x5 S5x64 S100000x64 where
  lhsContracting := [1]
  rhsContracting := [0]
  lhsNonContracting := [0]
  rhsNonContracting := [1]
  lhsBatch := []
  rhsBatch := []
  wf := dot_S100000x5_S5x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf

class Facts : Prop extends Facts₀ where

variable [Facts]
-- ==== Proof.KernelRun.lean ====
/-
  The idealized kernel's run with its result named.

  Every weakly fair execution of @main terminates without a fault; the argument arrays end as launched, and the result
  buffer ends holding what the last region's write-backs leave — the last of the buffer contents folded through
  @main's four stretches of host operations and four kernel regions (`W8`). The argument is the frame's own: the
  thread state after the last segment holds every unscoped buffer at those contents, and the final memory is read
  against it, here at the result buffer as well as at the arguments.
-/
import proofs.«129854_j38517266710862_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run_named : θ_run defs (onTc (τ := τ) (main (F := F))) ⟨m, fun _ => 0, ρ⟩ (fun r => ∀ c : Dev nD,
      r.2.mem ((c.tc : Thread nD τ).loc main_v84) = W8 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v84 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Named

end
-- ==== Proof.Fold.lean ====
/-
  What the idealized kernel's buffers hold at each boundary of @main, read back.

  @main is four stretches of host operations with a kernel region after each. The host operations that depend only
  on edge_index (the two index rows, the degree, its inverse square root, the per-edge coefficient) are the same
  operations the reference applies, so their values are stated as the reference's own stages of edge_index; a buffer
  that later stretches and regions do not write keeps its contents across them. Each region's result is the previous
  module's whole-array function of the region's inputs, and the edge sum formed after each region is, again, the
  reference's stage — the bf16 round trip around the row gather being the identity on the extended reals.
-/
import proofs.«129854_j38517266710862_2_alg».proof.Proof.Gen.KernelIdeal.Frame
import proofs.«129854_j38517266710862_2_alg».proof.Proof.Gen.ReferenceIdeal.Read

set_option maxRecDepth 16384

noncomputable section

namespace Cert.KernelIdeal.Fold

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- A buffer that no operation of a stretch writes is the same after the stretch. -/
local macro "kept_through" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## After the first stretch: what depends on edge_index alone -/

set_option maxHeartbeats 4000000 in
/-- The source row of edge_index. -/
theorem W1_src : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp
  rfl

set_option maxHeartbeats 4000000 in
/-- The target row of edge_index. -/
theorem W1_dst : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  rfl

set_option maxHeartbeats 4000000 in
/-- The per-edge coefficient rsqrt(deg)[src] · rsqrt(deg)[dst]. -/
theorem W1_coef : W1 m ρ c (Proc.devRef .tc main_v28) = Cert.ReferenceIdeal.Read.val_main_v29 (F := Ideal) (m ((c : Thread nD τ).loc main_arg1)) := by
  show StableHlo.after hostOps0 (W0 m ρ c) (Proc.devRef .tc main_v28) = _
  after_results_simp
  rfl

/-- The node's own scale rsqrt(deg) · rsqrt(deg), as an array over the nodes. -/
def selfScale (e : (⟨Cert.ReferenceIdeal.S2x3200000, .i32⟩ : BufTy).Contents (Elt Ideal)) : (⟨Cert.ReferenceIdeal.S100000, .f32⟩ : BufTy).Contents (Elt Ideal) :=
  fun i => Cert.ReferenceIdeal.Read.val_main_v14 (F := Ideal) e i * Cert.ReferenceIdeal.Read.val_main_v14 (F := Ideal) e i

set_option maxHeartbeats 4000000 in
theorem W1_scale : W1 m ρ c (Proc.devRef .tc main_v29) = selfScale (m ((c : Thread nD τ).loc main_arg1)) := by
  show StableHlo.after hostOps0 (W0 m ρ c) (Proc.devRef .tc main_v29) = _
  after_results_simp
  rfl

/-- The scale as the column [100000, 1] the regions read. -/
def scaleCol (e : (⟨Cert.ReferenceIdeal.S2x3200000, .i32⟩ : BufTy).Contents (Elt Ideal)) : S100000x1.Idx → EReal :=
  shapeCast S100000x1 (selfScale e) shapeCasts_S100000_S100000x1

/-- A bias as the row [1, 64] the regions read. -/
def biasRow64 (b : S64.Idx → EReal) : S1x64.Idx → EReal := shapeCast S1x64 b shapeCasts_S64_S1x64
/-- The last bias as the row [1, 2]. -/
def biasRow2 (b : S2.Idx → EReal) : S1x2.Idx → EReal := shapeCast S1x2 b shapeCasts_S2_S1x2

/-! ## The arguments after the first stretch -/
theorem W1_arg0 : W1 m ρ c (Proc.devRef .tc main_arg0) = (m ((c : Thread nD τ).loc main_arg0)) :=
  (by kept_through hostOps0 : W1 m ρ c (Proc.devRef .tc main_arg0) = W0 m ρ c (Proc.devRef .tc main_arg0)).trans rfl
theorem W1_arg2 : W1 m ρ c (Proc.devRef .tc main_arg2) = (m ((c : Thread nD τ).loc main_arg2)) :=
  (by kept_through hostOps0 : W1 m ρ c (Proc.devRef .tc main_arg2) = W0 m ρ c (Proc.devRef .tc main_arg2)).trans rfl
theorem W1_arg3 : W1 m ρ c (Proc.devRef .tc main_arg3) = (m ((c : Thread nD τ).loc main_arg3)) :=
  (by kept_through hostOps0 : W1 m ρ c (Proc.devRef .tc main_arg3) = W0 m ρ c (Proc.devRef .tc main_arg3)).trans rfl
theorem W1_arg4 : W1 m ρ c (Proc.devRef .tc main_arg4) = (m ((c : Thread nD τ).loc main_arg4)) :=
  (by kept_through hostOps0 : W1 m ρ c (Proc.devRef .tc main_arg4) = W0 m ρ c (Proc.devRef .tc main_arg4)).trans rfl
theorem W1_arg5 : W1 m ρ c (Proc.devRef .tc main_arg5) = (m ((c : Thread nD τ).loc main_arg5)) :=
  (by kept_through hostOps0 : W1 m ρ c (Proc.devRef .tc main_arg5) = W0 m ρ c (Proc.devRef .tc main_arg5)).trans rfl
theorem W1_arg6 : W1 m ρ c (Proc.devRef .tc main_arg6) = (m ((c : Thread nD τ).loc main_arg6)) :=
  (by kept_through hostOps0 : W1 m ρ c (Proc.devRef .tc main_arg6) = W0 m ρ c (Proc.devRef .tc main_arg6)).trans rfl
theorem W1_arg7 : W1 m ρ c (Proc.devRef .tc main_arg7) = (m ((c : Thread nD τ).loc main_arg7)) :=
  (by kept_through hostOps0 : W1 m ρ c (Proc.devRef .tc main_arg7) = W0 m ρ c (Proc.devRef .tc main_arg7)).trans rfl

/-! ## What later stretches and regions do not write, they keep -/
theorem W2_src : W2 m ρ c (Proc.devRef .tc main_v1) = Cert.ReferenceIdeal.Read.val_main_v1 (F := Ideal) (m ((c : Thread nD τ).loc main_arg1)) :=
  (W2_of_ne m ρ c main_v1 (by decide)).trans (W1_src m ρ c)
theorem W3_src : W3 m ρ c (Proc.devRef .tc main_v1) = Cert.ReferenceIdeal.Read.val_main_v1 (F := Ideal) (m ((c : Thread nD τ).loc main_arg1)) :=
  (by kept_through hostOps1 : W3 m ρ c (Proc.devRef .tc main_v1) = W2 m ρ c (Proc.devRef .tc main_v1)).trans (W2_src m ρ c)
theorem W4_src : W4 m ρ c (Proc.devRef .tc main_v1) = Cert.ReferenceIdeal.Read.val_main_v1 (F := Ideal) (m ((c : Thread nD τ).loc main_arg1)) :=
  (W4_of_ne m ρ c main_v1 (by decide)).trans (W3_src m ρ c)
theorem W5_src : W5 m ρ c (Proc.devRef .tc main_v1) = Cert.ReferenceIdeal.Read.val_main_v1 (F := Ideal) (m ((c : Thread nD τ).loc main_arg1)) :=
  (by kept_through hostOps2 : W5 m ρ c (Proc.devRef .tc main_v1) = W4 m ρ c (Proc.devRef .tc main_v1)).trans (W4_src m ρ c)
theorem W6_src : W6 m ρ c (Proc.devRef .tc main_v1) = Cert.ReferenceIdeal.Read.val_main_v1 (F := Ideal) (m ((c : Thread nD τ).loc main_arg1)) :=
  (W6_of_ne m ρ c main_v1 (by decide)).trans (W5_src m ρ c)
theorem W2_dst : W2 m ρ c (Proc.devRef .tc main_v3) = Cert.ReferenceIdeal.Read.val_main_v3 (F := Ideal) (m ((c : Thread nD τ).loc main_arg1)) :=
  (W2_of_ne m ρ c main_v3 (by decide)).trans (W1_dst m ρ c)
theorem W3_dst : W3 m ρ c (Proc.devRef .tc main_v3) = Cert.ReferenceIdeal.Read.val_main_v3 (F := Ideal) (m ((c : Thread nD τ).loc main_arg1)) :=
  (by kept_through hostOps1 : W3 m ρ c (Proc.devRef .tc main_v3) = W2 m ρ c (Proc.devRef .tc main_v3)).trans (W2_dst m ρ c)
theorem W4_dst : W4 m ρ c (Proc.devRef .tc main_v3) = Cert.ReferenceIdeal.Read.val_main_v3 (F := Ideal) (m ((c : Thread nD τ).loc main_arg1)) :=
  (W4_of_ne m ρ c main_v3 (by decide)).trans (W3_dst m ρ c)
theorem W5_dst : W5 m ρ c (Proc.devRef .tc main_v3) = Cert.ReferenceIdeal.Read.val_main_v3 (F := Ideal) (m ((c : Thread nD τ).loc main_arg1)) :=
  (by kept_through hostOps2 : W5 m ρ c (Proc.devRef .tc main_v3) = W4 m ρ c (Proc.devRef .tc main_v3)).trans (W4_dst m ρ c)
theorem W6_dst : W6 m ρ c (Proc.devRef .tc main_v3) = Cert.ReferenceIdeal.Read.val_main_v3 (F := Ideal) (m ((c : Thread nD τ).loc main_arg1)) :=
  (W6_of_ne m ρ c main_v3 (by decide)).trans (W5_dst m ρ c)
theorem W2_coef : W2 m ρ c (Proc.devRef .tc main_v28) = Cert.ReferenceIdeal.Read.val_main_v29 (F := Ideal) (m ((c : Thread nD τ).loc main_arg1)) :=
  (W2_of_ne m ρ c main_v28 (by decide)).trans (W1_coef m ρ c)
theorem W3_coef : W3 m ρ c (Proc.devRef .tc main_v28) = Cert.ReferenceIdeal.Read.val_main_v29 (F := Ideal) (m ((c : Thread nD τ).loc main_arg1)) :=
  (by kept_through hostOps1 : W3 m ρ c (Proc.devRef .tc main_v28) = W2 m ρ c (Proc.devRef .tc main_v28)).trans (W2_coef m ρ c)
theorem W4_coef : W4 m ρ c (Proc.devRef .tc main_v28) = Cert.ReferenceIdeal.Read.val_main_v29 (F := Ideal) (m ((c : Thread nD τ).loc main_arg1)) :=
  (W4_of_ne m ρ c main_v28 (by decide)).trans (W3_coef m ρ c)
theorem W5_coef : W5 m ρ c (Proc.devRef .tc main_v28) = Cert.ReferenceIdeal.Read.val_main_v29 (F := Ideal) (m ((c : Thread nD τ).loc main_arg1)) :=
  (by kept_through hostOps2 : W5 m ρ c (Proc.devRef .tc main_v28) = W4 m ρ c (Proc.devRef .tc main_v28)).trans (W4_coef m ρ c)
theorem W6_coef : W6 m ρ c (Proc.devRef .tc main_v28) = Cert.ReferenceIdeal.Read.val_main_v29 (F := Ideal) (m ((c : Thread nD τ).loc main_arg1)) :=
  (W6_of_ne m ρ c main_v28 (by decide)).trans (W5_coef m ρ c)
theorem W2_scale : W2 m ρ c (Proc.devRef .tc main_v29) = selfScale (m ((c : Thread nD τ).loc main_arg1)) :=
  (W2_of_ne m ρ c main_v29 (by decide)).trans (W1_scale m ρ c)
theorem W3_scale : W3 m ρ c (Proc.devRef .tc main_v29) = selfScale (m ((c : Thread nD τ).loc main_arg1)) :=
  (by kept_through hostOps1 : W3 m ρ c (Proc.devRef .tc main_v29) = W2 m ρ c (Proc.devRef .tc main_v29)).trans (W2_scale m ρ c)
theorem W4_scale : W4 m ρ c (Proc.devRef .tc main_v29) = selfScale (m ((c : Thread nD τ).loc main_arg1)) :=
  (W4_of_ne m ρ c main_v29 (by decide)).trans (W3_scale m ρ c)
theorem W5_scale : W5 m ρ c (Proc.devRef .tc main_v29) = selfScale (m ((c : Thread nD τ).loc main_arg1)) :=
  (by kept_through hostOps2 : W5 m ρ c (Proc.devRef .tc main_v29) = W4 m ρ c (Proc.devRef .tc main_v29)).trans (W4_scale m ρ c)
theorem W6_scale : W6 m ρ c (Proc.devRef .tc main_v29) = selfScale (m ((c : Thread nD τ).loc main_arg1)) :=
  (W6_of_ne m ρ c main_v29 (by decide)).trans (W5_scale m ρ c)
theorem W2_arg3 : W2 m ρ c (Proc.devRef .tc main_arg3) = (m ((c : Thread nD τ).loc main_arg3)) :=
  (W2_of_ne m ρ c main_arg3 (by decide)).trans (W1_arg3 m ρ c)
theorem W2_arg4 : W2 m ρ c (Proc.devRef .tc main_arg4) = (m ((c : Thread nD τ).loc main_arg4)) :=
  (W2_of_ne m ρ c main_arg4 (by decide)).trans (W1_arg4 m ρ c)
theorem W3_arg4 : W3 m ρ c (Proc.devRef .tc main_arg4) = (m ((c : Thread nD τ).loc main_arg4)) :=
  (by kept_through hostOps1 : W3 m ρ c (Proc.devRef .tc main_arg4) = W2 m ρ c (Proc.devRef .tc main_arg4)).trans (W2_arg4 m ρ c)
theorem W2_arg5 : W2 m ρ c (Proc.devRef .tc main_arg5) = (m ((c : Thread nD τ).loc main_arg5)) :=
  (W2_of_ne m ρ c main_arg5 (by decide)).trans (W1_arg5 m ρ c)
theorem W3_arg5 : W3 m ρ c (Proc.devRef .tc main_arg5) = (m ((c : Thread nD τ).loc main_arg5)) :=
  (by kept_through hostOps1 : W3 m ρ c (Proc.devRef .tc main_arg5) = W2 m ρ c (Proc.devRef .tc main_arg5)).trans (W2_arg5 m ρ c)
theorem W4_arg5 : W4 m ρ c (Proc.devRef .tc main_arg5) = (m ((c : Thread nD τ).loc main_arg5)) :=
  (W4_of_ne m ρ c main_arg5 (by decide)).trans (W3_arg5 m ρ c)
theorem W2_arg6 : W2 m ρ c (Proc.devRef .tc main_arg6) = (m ((c : Thread nD τ).loc main_arg6)) :=
  (W2_of_ne m ρ c main_arg6 (by decide)).trans (W1_arg6 m ρ c)
theorem W3_arg6 : W3 m ρ c (Proc.devRef .tc main_arg6) = (m ((c : Thread nD τ).loc main_arg6)) :=
  (by kept_through hostOps1 : W3 m ρ c (Proc.devRef .tc main_arg6) = W2 m ρ c (Proc.devRef .tc main_arg6)).trans (W2_arg6 m ρ c)
theorem W4_arg6 : W4 m ρ c (Proc.devRef .tc main_arg6) = (m ((c : Thread nD τ).loc main_arg6)) :=
  (W4_of_ne m ρ c main_arg6 (by decide)).trans (W3_arg6 m ρ c)
theorem W5_arg6 : W5 m ρ c (Proc.devRef .tc main_arg6) = (m ((c : Thread nD τ).loc main_arg6)) :=
  (by kept_through hostOps2 : W5 m ρ c (Proc.devRef .tc main_arg6) = W4 m ρ c (Proc.devRef .tc main_arg6)).trans (W4_arg6 m ρ c)
theorem W2_arg7 : W2 m ρ c (Proc.devRef .tc main_arg7) = (m ((c : Thread nD τ).loc main_arg7)) :=
  (W2_of_ne m ρ c main_arg7 (by decide)).trans (W1_arg7 m ρ c)
theorem W3_arg7 : W3 m ρ c (Proc.devRef .tc main_arg7) = (m ((c : Thread nD τ).loc main_arg7)) :=
  (by kept_through hostOps1 : W3 m ρ c (Proc.devRef .tc main_arg7) = W2 m ρ c (Proc.devRef .tc main_arg7)).trans (W2_arg7 m ρ c)
theorem W4_arg7 : W4 m ρ c (Proc.devRef .tc main_arg7) = (m ((c : Thread nD τ).loc main_arg7)) :=
  (W4_of_ne m ρ c main_arg7 (by decide)).trans (W3_arg7 m ρ c)
theorem W5_arg7 : W5 m ρ c (Proc.devRef .tc main_arg7) = (m ((c : Thread nD τ).loc main_arg7)) :=
  (by kept_through hostOps2 : W5 m ρ c (Proc.devRef .tc main_arg7) = W4 m ρ c (Proc.devRef .tc main_arg7)).trans (W4_arg7 m ρ c)
theorem W6_arg7 : W6 m ρ c (Proc.devRef .tc main_arg7) = (m ((c : Thread nD τ).loc main_arg7)) :=
  (W6_of_ne m ρ c main_arg7 (by decide)).trans (W5_arg7 m ρ c)

/-! ## Region 0 reads x and W1 -/

theorem V1_x : V1 m ρ c main_arg0 = (m ((c : Thread nD τ).loc main_arg0)) := W1_arg0 m ρ c
theorem V1_w : V1 m ρ c main_arg2 = (m ((c : Thread nD τ).loc main_arg2)) := W1_arg2 m ρ c

/-! ## The second stretch: layer 1's edge sum, scale column and bias row -/

set_option maxHeartbeats 4000000 in
/-- Once region 0's result is the reference's x · W1, the edge sum formed from it is the reference's. -/
theorem V3_agg (h1 : W2 m ρ c (Proc.devRef .tc main_v30) = Cert.ReferenceIdeal.Read.val_main_v4 (F := Ideal) (m ((c : Thread nD τ).loc main_arg0)) (m ((c : Thread nD τ).loc main_arg2))) :
    V3 m ρ c main_v45 = Cert.ReferenceIdeal.Read.val_main_v42 (F := Ideal) (m ((c : Thread nD τ).loc main_arg0)) (m ((c : Thread nD τ).loc main_arg1)) (m ((c : Thread nD τ).loc main_arg2)) := by
  show StableHlo.after hostOps1 (W2 m ρ c) (Proc.devRef .tc main_v45) = _
  after_results_simp
  rw [h1, W2_src m ρ c, W2_dst m ρ c, W2_coef m ρ c]
  rfl

theorem V3_h : V3 m ρ c main_v30 = W2 m ρ c (Proc.devRef .tc main_v30) := by kept_through hostOps1

set_option maxHeartbeats 4000000 in
theorem V3_scale : V3 m ρ c main_v47 = scaleCol (m ((c : Thread nD τ).loc main_arg1)) := by
  show StableHlo.after hostOps1 (W2 m ρ c) (Proc.devRef .tc main_v47) = _
  after_results_simp
  rw [W2_scale m ρ c]
  rfl

set_option maxHeartbeats 4000000 in
theorem V3_bias : V3 m ρ c main_v46 = biasRow64 (m ((c : Thread nD τ).loc main_arg3)) := by
  show StableHlo.after hostOps1 (W2 m ρ c) (Proc.devRef .tc main_v46) = _
  after_results_simp
  rw [W2_arg3 m ρ c]
  rfl

theorem V3_w : V3 m ρ c main_arg4 = (m ((c : Thread nD τ).loc main_arg4)) := W3_arg4 m ρ c

/-! ## The third stretch: layer 2's -/

set_option maxHeartbeats 4000000 in
theorem V5_agg (h2 : W4 m ρ c (Proc.devRef .tc main_v48) = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :
    V5 m ρ c main_v63 = Cert.ReferenceIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W4 m ρ c) (Proc.devRef .tc main_v63) = _
  after_results_simp
  rw [h2, W4_src m ρ c, W4_dst m ρ c, W4_coef m ρ c]
  rfl

theorem V5_h : V5 m ρ c main_v48 = W4 m ρ c (Proc.devRef .tc main_v48) := by kept_through hostOps2

set_option maxHeartbeats 4000000 in
theorem V5_scale : V5 m ρ c main_v65 = scaleCol (m ((c : Thread nD τ).loc main_arg1)) := by
  show StableHlo.after hostOps2 (W4 m ρ c) (Proc.devRef .tc main_v65) = _
  after_results_simp
  rw [W4_scale m ρ c]
  rfl

set_option maxHeartbeats 4000000 in
theorem V5_bias : V5 m ρ c main_v64 = biasRow64 (m ((c : Thread nD τ).loc main_arg5)) := by
  show StableHlo.after hostOps2 (W4 m ρ c) (Proc.devRef .tc main_v64) = _
  after_results_simp
  rw [W4_arg5 m ρ c]
  rfl

theorem V5_w : V5 m ρ c main_arg6 = (m ((c : Thread nD τ).loc main_arg6)) := W5_arg6 m ρ c

/-! ## The fourth stretch: layer 3's -/

set_option maxHeartbeats 4000000 in
theorem V7_agg (h3 : W6 m ρ c (Proc.devRef .tc main_v66) = Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    V7 m ρ c main_v81 = Cert.ReferenceIdeal.Read.val_main_v140 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps3 (W6 m ρ c) (Proc.devRef .tc main_v81) = _
  after_results_simp
  rw [h3, W6_src m ρ c, W6_dst m ρ c, W6_coef m ρ c]
  rfl

theorem V7_h : V7 m ρ c main_v66 = W6 m ρ c (Proc.devRef .tc main_v66) := by kept_through hostOps3

set_option maxHeartbeats 4000000 in
theorem V7_scale : V7 m ρ c main_v83 = scaleCol (m ((c : Thread nD τ).loc main_arg1)) := by
  show StableHlo.after hostOps3 (W6 m ρ c) (Proc.devRef .tc main_v83) = _
  after_results_simp
  rw [W6_scale m ρ c]
  rfl

set_option maxHeartbeats 4000000 in
theorem V7_bias : V7 m ρ c main_v82 = biasRow2 (m ((c : Thread nD τ).loc main_arg7)) := by
  show StableHlo.after hostOps3 (W6 m ρ c) (Proc.devRef .tc main_v82) = _
  after_results_simp
  rw [W6_arg7 m ρ c]
  rfl

end Cert.KernelIdeal.Fold

end
-- ==== Proof.Spec.lean ====
/-
  The three-layer graph convolution, as plain functions on the extended reals.

  One layer takes node features H (N rows), multiplies them by a weight matrix, and at node p adds up, over the edges
  that end at p, the source rows scaled per edge, plus the node's own row scaled by s(p), plus a bias row:
      out[p, q] = (agg[p, q] + (H·W)[p, q] · s[p]) + b[q].
  The first two layers clamp the result at zero before the next product. Written here are only the dense pieces,
  at explicit coordinates (p the node, k the contracted feature, q the output feature); the sum over edges is kept
  as an array `agg` that both programs compute by the same operations.
-/
import Idealize.ShloMosaic.PureOps.Ideal
import Idealize.ShloMosaic.Lib.ValueIdx

noncomputable section

open scoped BigOperators

namespace Cert.Spec

open Idealize.ShloMosaic Idealize.ShloMosaic.ValueIdx

variable {M K N : Nat}

/-- The matrix product at (p, q): the sum over k of A[p, k] · W[k, q]. -/
def mm (A : (⟨2, ![M, K]⟩ : Shape).Idx → EReal) (W : (⟨2, ![K, N]⟩ : Shape).Idx → EReal) (p : Fin M) (q : Fin N) : EReal :=
  ∑ k : Fin K, A (ix2 p k) * W (ix2 k q)

/-- A layer before its clamp, at (p, k): the edge sum, plus the node's own row times its scale, plus the bias;
    the scale is a column [M, 1] and the bias a row [1, K]. -/
def pre (agg h : (⟨2, ![M, K]⟩ : Shape).Idx → EReal) (s : (⟨2, ![M, 1]⟩ : Shape).Idx → EReal)
    (b : (⟨2, ![1, K]⟩ : Shape).Idx → EReal) (p : Fin M) (k : Fin K) : EReal :=
  (agg (ix2 p k) + h (ix2 p k) * s (ix2 p 0)) + b (ix2 0 k)

/-- A clamped layer followed by the next layer's product, at (p, q): the sum over k of max(pre[p, k], 0) · W[k, q]. -/
def fused (agg h : (⟨2, ![M, K]⟩ : Shape).Idx → EReal) (s : (⟨2, ![M, 1]⟩ : Shape).Idx → EReal)
    (b : (⟨2, ![1, K]⟩ : Shape).Idx → EReal) (W : (⟨2, ![K, N]⟩ : Shape).Idx → EReal) (p : Fin M) (q : Fin N) : EReal :=
  ∑ k : Fin K, max (pre agg h s b p k) 0 * W (ix2 k q)

end Cert.Spec

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.Region0.lean ====
/-
  The first kernel region: x · W1 computed in 20 row blocks of 5000 nodes.

  Each grid point t loads rows 5000·t … 5000·t + 4999 of x and all of W1, multiplies them on the matrix unit into a
  zero accumulator, and writes the 5000 × 64 block back. Read on the extended reals (where narrowing to bf16 is the
  identity), entry (p, q) of a block is the sum over k of x[5000·t + p, k] · W1[k, q]; the blocks tile the array, so
  the whole result is the matrix product, whatever the buffers hold when the region is entered.
-/
import proofs.«129854_j38517266710862_2_alg».proof.Proof.Gen.KernelIdeal.Frame
import proofs.«129854_j38517266710862_2_alg».proof.Proof.Spec
import proofs.«129854_j38517266710862_2_alg».proof.Proof.LibMatmul
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole product as an array: entry i is (A · W) at i's two coordinates. -/
def G (A : S100000x5.Idx → EReal) (W : S5x64.Idx → EReal) : S100000x64.Idx → EReal :=
  fun i => Cert.Spec.mm A W ⟨(i 0).val, (i 0).isLt⟩ ⟨(i 1).val, (i 1).isLt⟩

theorem G_ix2 (A : S100000x5.Idx → EReal) (W : S5x64.Idx → EReal) (p : Fin 100000) (q : Fin 64) :
    G A W (ix2 p q) = Cert.Spec.mm A W p q := rfl

/-- One block's stored value at (p, q): the sum over k of the loaded rows times the loaded weights. -/
theorem pay_apply (x0 : Vec Ideal S5000x5 .f32) (x1 : Vec Ideal S5x64 .f32) (p : Fin 5000) (q : Fin 64) :
    k0_pay1 x0 x1 (ix2 p q) = ∑ k : Fin 5, x0 (ix2 p k) * x1 (ix2 k q) :=
  Cert.Bridge.LibMatmul.matmul_zero_apply (M := 5000) (K := 5) (N := 64) none x0 x1 p q

/-- Over the 20 grid points: the input rows move with the output rows, the weights stay, and the output's block
    row is the point's number. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every block row is some point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- Where the loaded row block sits in x: row p of block t is row (block row of the output) · 5000 + p, column k. -/
theorem emb_rows (t : Fin cfg0.N) (p : Fin 5000) (k : Fin 5) (q : Fin 64) :
    ((cfg0.win 0).blk t).view.emb (ix2 p k)
      = ix2 ⟨((((cfg0.win 2).blk t).view.emb (ix2 p q)) 0).val, ((((cfg0.win 2).blk t).view.emb (ix2 p q)) 0).isLt⟩ k := by
  obtain ⟨e0, e1, e2, e3, e4, e5⟩ := idx_facts t
  funext a; apply Fin.ext
  match a with
  | ⟨0, _⟩ => show win0_0.index t (0 : Fin 2) * 5000 + 1 * p.val = win0_2.index t (0 : Fin 2) * 5000 + 1 * p.val; omega
  | ⟨1, _⟩ => show win0_0.index t (1 : Fin 2) * 5 + 1 * k.val = k.val; omega

/-- The weights are loaded whole: entry (k, q) of the loaded block is W[k, output column]. -/
theorem emb_weights (t : Fin cfg0.N) (p : Fin 5000) (k : Fin 5) (q : Fin 64) :
    ((cfg0.win 1).blk t).view.emb (ix2 k q)
      = ix2 k ⟨((((cfg0.win 2).blk t).view.emb (ix2 p q)) 1).val, ((((cfg0.win 2).blk t).view.emb (ix2 p q)) 1).isLt⟩ := by
  obtain ⟨e0, e1, e2, e3, e4, e5⟩ := idx_facts t
  funext a; apply Fin.ext
  match a with
  | ⟨0, _⟩ => show win0_1.index t (0 : Fin 2) * 5 + 1 * k.val = k.val; omega
  | ⟨1, _⟩ => show win0_1.index t (1 : Fin 2) * 64 + 1 * q.val = win0_2.index t (1 : Fin 2) * 64 + 1 * q.val; omega

/-- What point t writes back is block t of the whole product of the arrays the region finds. -/
theorem flushed_eq (c : Dev nD) (t : Fin cfg0.N) :
    (dat0 V c).flushed 2 t = ((cfg0.win 2).blk t).view.read (Elt Ideal) (G (V c main_arg0) (V c main_arg2)) := by
  show (cfg0.win 2).cut (grid0.coords t) ((dat0 V c).after 2 t) = _
  rw [after0_2]
  unfold out0_2
  rw [View.canon_unit_zero hz]
  simp only [View.ld_unit_zero (S := S5000x5) hz, View.ld_unit_zero (S := S5x64) hz]
  funext j
  obtain ⟨p, q, rfl⟩ : ∃ (p : Fin 5000) (q : Fin 64), j = ix2 p q := ⟨j 0, j 1, eq_ix2 j⟩
  show k0_pay1 (iblk0 V c 0 t) (iblk0 V c 1 t) (ix2 p q) = G (V c main_arg0) (V c main_arg2) (((cfg0.win 2).blk t).view.emb (ix2 p q))
  refine (pay_apply (iblk0 V c 0 t) (iblk0 V c 1 t) p q).trans ?_
  unfold G Cert.Spec.mm
  refine Finset.sum_congr rfl fun k _ => ?_
  refine congrArg₂ (fun a b : EReal => a * b) ?_ ?_
  · show V c main_arg0 (((cfg0.win 0).blk t).view.emb (ix2 p k)) = _
    rw [emb_rows t p k q]; rfl
  · show V c main_arg2 (((cfg0.win 1).blk t).view.emb (ix2 k q)) = _
    rw [emb_weights t p k q]; rfl

/-- An index is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- The 20 blocks cover the array: row r lies in block r / 5000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The region's result array, after its 20 write-backs, is the whole product of the arrays it found. -/
theorem final (c : Dev nD) : (dat0 V c).arrAt 2 cfg0.N = G (V c main_arg0) (V c main_arg2) :=
  (dat0 V c).arrAt_eq_of_cover 2 (G (V c main_arg0) (V c main_arg2)) (fun t _ => flushed_eq V c t) cover

end Cert.KernelIdeal.Region0

end
-- ==== Proof.Stage1.lean ====
/-
  The first layer's product: the kernel's 20 row blocks of x · W1, put together, are the reference's one product.
  Both are, at (p, q), the sum over k of x[p, k] · W1[k, q].
-/
import proofs.«129854_j38517266710862_2_alg».proof.Proof.Region0
import proofs.«129854_j38517266710862_2_alg».proof.Proof.Gen.ReferenceIdeal.Read

set_option maxRecDepth 16384

noncomputable section

open scoped BigOperators

namespace Cert.Bridge.Stage1

open Idealize.ShloMosaic Idealize.ShloMosaic.ValueIdx

theorem layer (x0 : (⟨Cert.ReferenceIdeal.S100000x5, .f32⟩ : BufTy).Contents (Elt Ideal)) (x2 : (⟨Cert.ReferenceIdeal.S5x64, .f32⟩ : BufTy).Contents (Elt Ideal)) :
    Cert.KernelIdeal.Region0.G x0 x2 = Cert.ReferenceIdeal.Read.val_main_v4 (F := Ideal) x0 x2 := by
  funext i
  obtain ⟨p, q, rfl⟩ : ∃ (p : Fin 100000) (q : Fin 64), i = ix2 p q := ⟨i 0, i 1, eq_ix2 i⟩
  rw [Cert.KernelIdeal.Region0.G_ix2, Cert.ReferenceIdeal.Read.val_main_v4_apply]
  unfold Cert.Spec.mm
  refine Finset.sum_congr rfl fun k _ => ?_
  have el : Cert.ReferenceIdeal.Read.lidx_main_v4 (ix2 p q) k = ix2 p k :=
    funext fun a => Fin.ext (by match a with | ⟨0, _⟩ => rfl | ⟨1, _⟩ => rfl)
  have er : Cert.ReferenceIdeal.Read.ridx_main_v4 (ix2 p q) k = ix2 k q :=
    funext fun a => Fin.ext (by match a with | ⟨0, _⟩ => rfl | ⟨1, _⟩ => rfl)
  rw [el, er]

end Cert.Bridge.Stage1

end
-- ==== Proof.LibColumn.lean ====
/-
  Column ("keepdims") layout forms read at an index given by coordinates, and one-axis float reductions of a matrix
  along its rows read as `Fin`-indexed sums and maxima. General lemmas in the style of the library's
  Lib/ValueLayout.lean: each fixes a rank and what the operation does there, with every index written `ixN …`.
  • `shapeCast_a_a1_apply`: a vector `[a]` cast to the column `[a, 1]`.
  • `broadcastTo_a1_ab_apply`: a column `[a, 1]` broadcast along the rows of `[a, b]`.
  • `transpose_a1_1a_apply`: a column `[a, 1]` transposed to the row `[1, a]`.
  • `multiReduction_add_rows_apply`: a float `<add>` reduction of `[a, b]` over axis 1, at the ideal values, is the
    sum over the row; `multiReduction_maximumf_rows_apply`: the `<maximumf>` one is the fold of `max` over the row.
  • `fold_max_bot_eq_sup`, `sup_indicator`: a fold of `max` from `⊥` is the supremum, and the supremum of a 0/1
    indicator over a nonempty range is 1 exactly when the indicator fires somewhere.
-/
import Idealize.ShloMosaic.Lib.ValueLayout
import Idealize.ShloMosaic.PureOps.Ideal.Laws

open scoped BigOperators

namespace Cert.Lib.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(u, i)`, the column at `(i, u)`. -/
theorem transpose_a1_1a_apply {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_ix2_apply x h u i

/-- At the ideal values a float `vector.multi_reduction <add>` of a matrix over axis 1, read at row `r`, is the sum of
    the row. -/
theorem multiReduction_add_rows_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext d
  match d with
  | ⟨0, _⟩ => exact Fin.ext rfl
  | ⟨1, _⟩ => exact Fin.ext rfl

/-- At the ideal values a float `vector.multi_reduction <maximumf>` of a matrix over axis 1, read at row `r`, is the
    fold of `max` from the accumulator's value over the row. -/
theorem multiReduction_maximumf_rows_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (fun f => (Finset.univ : Finset (Fin b)).fold max (Ideal.ofBits φ acc) f) ?_
  funext k
  refine congrArg src ?_
  funext d
  match d with
  | ⟨0, _⟩ => exact Fin.ext rfl
  | ⟨1, _⟩ => exact Fin.ext rfl

/-- The f32 word `0xFF800000` is `-∞`, the least extended real. -/
theorem ofBits_negInf_f32 : Ideal.ofBits .f32 0xFF800000#32 = ⊥ := by simp [Ideal.ofBits, Ideal.ieee]

/-- A fold of `max` from `⊥` is the supremum. -/
theorem fold_max_bot_eq_sup {ι : Type} (s : Finset ι) (f : ι → EReal) : s.fold max ⊥ f = s.sup f := rfl

/-- The supremum over a nonempty finite range of a 0/1 indicator is `1` when the indicator fires somewhere, else `0`. -/
theorem sup_indicator {ι : Type} [Fintype ι] [Nonempty ι] (p : ι → Prop) [DecidablePred p] [Decidable (∃ c, p c)] :
    (Finset.univ : Finset ι).sup (fun c => if p c then (1 : EReal) else 0) = if ∃ c, p c then 1 else 0 := by
  apply le_antisymm
  · refine Finset.sup_le fun c _ => ?_
    by_cases hc : p c
    · rw [if_pos hc, if_pos ⟨c, hc⟩]
    · rw [if_neg hc]; split
      · exact zero_le_one
      · exact le_rfl
  · split
    · rename_i hex
      obtain ⟨c, hc⟩ := hex
      have := Finset.le_sup (f := fun c => if p c then (1 : EReal) else 0) (Finset.mem_univ c)
      simpa [hc] using this
    · obtain ⟨c⟩ := ‹Nonempty ι›
      have := Finset.le_sup (f := fun c => if p c then (1 : EReal) else 0) (Finset.mem_univ c)
      refine le_trans ?_ this
      split
      · exact zero_le_one
      · exact le_rfl

end Cert.Lib.Column
-- ==== Proof.Region1.lean ====
/-
  The second kernel region: a clamped graph-convolution layer followed by the next layer's product, in 20 row
  blocks of 5000 nodes.

  Each grid point t loads rows 5000·t … 5000·t + 4999 of the edge sum agg, of the node features h and of the scale
  column s, together with the whole bias row b and the whole weight matrix W. On the block it forms
  (agg + h · s) + b with the column repeated along the rows and the row repeated down the columns, clamps it at zero,
  multiplies the result by W on the matrix unit into a zero accumulator, and writes the 5000 × 64 block back. Read on
  the extended reals (where narrowing to bf16 is the identity), entry (p, q) of a block is the sum over k of
  max((agg[r, k] + h[r, k] · s[r]) + b[k], 0) · W[k, q] at the row r = 5000·t + p; the blocks tile the array, so the
  whole result is the fused layer of the specification, whatever the buffers hold when the region is entered.
-/
import proofs.«129854_j38517266710862_2_alg».proof.Proof.Gen.KernelIdeal.Frame
import proofs.«129854_j38517266710862_2_alg».proof.Proof.Spec
import proofs.«129854_j38517266710862_2_alg».proof.Proof.LibMatmul
import proofs.«129854_j38517266710862_2_alg».proof.Proof.LibColumn
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole fused layer as an array: entry i is the clamped layer times W at i's two coordinates. -/
def G (agg h : S100000x64.Idx → EReal) (s : S100000x1.Idx → EReal) (b : S1x64.Idx → EReal) (W : S64x64.Idx → EReal) :
    S100000x64.Idx → EReal :=
  fun i => Cert.Spec.fused agg h s b W ⟨(i 0).val, (i 0).isLt⟩ ⟨(i 1).val, (i 1).isLt⟩

theorem G_ix2 (agg h : S100000x64.Idx → EReal) (s : S100000x1.Idx → EReal) (b : S1x64.Idx → EReal) (W : S64x64.Idx → EReal)
    (p : Fin 100000) (q : Fin 64) : G agg h s b W (ix2 p q) = Cert.Spec.fused agg h s b W p q := rfl

/-- The block before its clamp at (p, k): the loaded edge sums plus the loaded features times the row's scale, plus
    the bias at column k. The same-shape casts are the identity, the scale column is repeated along its row and the
    bias row down its column. -/
theorem comb_apply (x0 x1 : FVec Ideal S5000x64 .f32) (x2 : FVec Ideal S5000x1 .f32) (x3 : FVec Ideal S1x64 .f32)
    (p : Fin 5000) (k : Fin 64) :
    addf (addf (shapeCast S5000x64 x0 shapeCasts_S5000x64_S5000x64)
        (mulf (shapeCast S5000x64 x1 shapeCasts_S5000x64_S5000x64)
          (broadcastTo S5000x64 (shapeCast S5000x1 x2 shapeCasts_S5000x1_S5000x1) broadcasts_S5000x1_S5000x64)))
      (broadcastTo S5000x64 (shapeCast S1x64 x3 shapeCasts_S1x64_S1x64) broadcasts_S1x64_S5000x64) (ix2 p k)
      = (x0 (ix2 p k) + x1 (ix2 p k) * x2 (ix2 p 0)) + x3 (ix2 0 k) := by
  rw [shapeCast_self x0, shapeCast_self x1, shapeCast_self x2, shapeCast_self x3]
  refine congrArg₂ (fun a b : EReal => a + b) ?_ ?_
  · refine congrArg₂ (fun a b : EReal => a + b) rfl ?_
    refine congrArg₂ (fun a b : EReal => a * b) rfl ?_
    exact Cert.Lib.Column.broadcastTo_a1_ab_apply x2 broadcasts_S5000x1_S5000x64 p k
  · exact broadcastTo_1b_ab_apply x3 broadcasts_S1x64_S5000x64 p k

/-- One block's stored value at (p, q): the sum over k of the clamped combination times the loaded weights. -/
theorem pay_apply (x0 x1 : Vec Ideal S5000x64 .f32) (x2 : Vec Ideal S5000x1 .f32) (x3 : Vec Ideal S1x64 .f32)
    (x4 : Vec Ideal S64x64 .f32) (p : Fin 5000) (q : Fin 64) :
    k1_pay1 x0 x1 x2 x3 x4 (ix2 p q)
      = ∑ k : Fin 64, max ((x0 (ix2 p k) + x1 (ix2 p k) * x2 (ix2 p 0)) + x3 (ix2 0 k)) 0 * x4 (ix2 k q) := by
  unfold k1_pay1
  refine (Cert.Bridge.LibMatmul.matmul_zero_apply (M := 5000) (K := 64) (N := 64) none _ _ p q).trans ?_
  refine Finset.sum_congr rfl fun k _ => ?_
  refine congrArg₂ (fun a b : EReal => a * b) ?_ rfl
  refine congrArg₂ (fun a b : EReal => max a b) (comb_apply x0 x1 x2 x3 p k) ?_
  exact Ideal.ofBits_zero_f32

/-- Over the 20 grid points: the edge sums, the features and the scale column move with the output rows, the bias
    row and the weights stay, and the output's block row is the point's number. -/
theorem idx_facts : ∀ t : Fin cfg1.N,
    (win1_0.index t (0 : Fin 2) = win1_5.index t (0 : Fin 2) ∧ win1_0.index t (1 : Fin 2) = 0)
    ∧ (win1_1.index t (0 : Fin 2) = win1_5.index t (0 : Fin 2) ∧ win1_1.index t (1 : Fin 2) = 0)
    ∧ (win1_2.index t (0 : Fin 2) = win1_5.index t (0 : Fin 2) ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ win1_5.index t (1 : Fin 2) = 0 ∧ win1_5.index t (0 : Fin 2) ≤ 19 :=
  (by decide +kernel : ∀ t : Fin grid1.N, _)

/-- Every block row is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

/-- Where the loaded block of edge sums sits in agg: row p of block t is row (block row of the output) · 5000 + p,
    column k. -/
theorem emb_agg (t : Fin cfg1.N) (p : Fin 5000) (k : Fin 64) (q : Fin 64) :
    ((cfg1.win 0).blk t).view.emb (ix2 p k)
      = ix2 ⟨((((cfg1.win 5).blk t).view.emb (ix2 p q)) 0).val, ((((cfg1.win 5).blk t).view.emb (ix2 p q)) 0).isLt⟩ k := by
  obtain ⟨⟨a0, a1⟩, ⟨b0, b1⟩, ⟨c0, c1⟩, ⟨d0, d1⟩, ⟨e0, e1⟩, f1, f0⟩ := idx_facts t
  funext a; apply Fin.ext
  match a with
  | ⟨0, _⟩ => show win1_0.index t (0 : Fin 2) * 5000 + 1 * p.val = win1_5.index t (0 : Fin 2) * 5000 + 1 * p.val; omega
  | ⟨1, _⟩ => show win1_0.index t (1 : Fin 2) * 64 + 1 * k.val = k.val; omega

/-- The loaded block of features sits in h at the same rows and columns. -/
theorem emb_h (t : Fin cfg1.N) (p : Fin 5000) (k : Fin 64) (q : Fin 64) :
    ((cfg1.win 1).blk t).view.emb (ix2 p k)
      = ix2 ⟨((((cfg1.win 5).blk t).view.emb (ix2 p q)) 0).val, ((((cfg1.win 5).blk t).view.emb (ix2 p q)) 0).isLt⟩ k := by
  obtain ⟨⟨a0, a1⟩, ⟨b0, b1⟩, ⟨c0, c1⟩, ⟨d0, d1⟩, ⟨e0, e1⟩, f1, f0⟩ := idx_facts t
  funext a; apply Fin.ext
  match a with
  | ⟨0, _⟩ => show win1_1.index t (0 : Fin 2) * 5000 + 1 * p.val = win1_5.index t (0 : Fin 2) * 5000 + 1 * p.val; omega
  | ⟨1, _⟩ => show win1_1.index t (1 : Fin 2) * 64 + 1 * k.val = k.val; omega

/-- The loaded block of the scale column sits in s at the same rows, in its one column. -/
theorem emb_scale (t : Fin cfg1.N) (p : Fin 5000) (q : Fin 64) :
    ((cfg1.win 2).blk t).view.emb (ix2 p (0 : Fin 1))
      = ix2 ⟨((((cfg1.win 5).blk t).view.emb (ix2 p q)) 0).val, ((((cfg1.win 5).blk t).view.emb (ix2 p q)) 0).isLt⟩ (0 : Fin 1) := by
  obtain ⟨⟨a0, a1⟩, ⟨b0, b1⟩, ⟨c0, c1⟩, ⟨d0, d1⟩, ⟨e0, e1⟩, f1, f0⟩ := idx_facts t
  funext a; apply Fin.ext
  match a with
  | ⟨0, _⟩ => show win1_2.index t (0 : Fin 2) * 5000 + 1 * p.val = win1_5.index t (0 : Fin 2) * 5000 + 1 * p.val; omega
  | ⟨1, _⟩ => show win1_2.index t (1 : Fin 2) * 1 + 1 * 0 = 0; omega

/-- The bias row is loaded whole: entry (0, k) of the loaded block is b[0, k]. -/
theorem emb_bias (t : Fin cfg1.N) (k : Fin 64) :
    ((cfg1.win 3).blk t).view.emb (ix2 (0 : Fin 1) k) = ix2 (0 : Fin 1) k := by
  obtain ⟨⟨a0, a1⟩, ⟨b0, b1⟩, ⟨c0, c1⟩, ⟨d0, d1⟩, ⟨e0, e1⟩, f1, f0⟩ := idx_facts t
  funext a; apply Fin.ext
  match a with
  | ⟨0, _⟩ => show win1_3.index t (0 : Fin 2) * 1 + 1 * 0 = 0; omega
  | ⟨1, _⟩ => show win1_3.index t (1 : Fin 2) * 64 + 1 * k.val = k.val; omega

/-- The weights are loaded whole: entry (k, q) of the loaded block is W[k, output column]. -/
theorem emb_weights (t : Fin cfg1.N) (p : Fin 5000) (k : Fin 64) (q : Fin 64) :
    ((cfg1.win 4).blk t).view.emb (ix2 k q)
      = ix2 k ⟨((((cfg1.win 5).blk t).view.emb (ix2 p q)) 1).val, ((((cfg1.win 5).blk t).view.emb (ix2 p q)) 1).isLt⟩ := by
  obtain ⟨⟨a0, a1⟩, ⟨b0, b1⟩, ⟨c0, c1⟩, ⟨d0, d1⟩, ⟨e0, e1⟩, f1, f0⟩ := idx_facts t
  funext a; apply Fin.ext
  match a with
  | ⟨0, _⟩ => show win1_4.index t (0 : Fin 2) * 64 + 1 * k.val = k.val; omega
  | ⟨1, _⟩ => show win1_4.index t (1 : Fin 2) * 64 + 1 * q.val = win1_5.index t (1 : Fin 2) * 64 + 1 * q.val; omega

/-- What point t writes back is block t of the fused layer of the arrays the region finds. -/
theorem flushed_eq (c : Dev nD) (t : Fin cfg1.N) :
    (dat1 V c).flushed 5 t = ((cfg1.win 5).blk t).view.read (Elt Ideal)
      (G (V c main_v45) (V c main_v30) (V c main_v47) (V c main_v46) (V c main_arg4)) := by
  show (cfg1.win 5).cut (grid1.coords t) ((dat1 V c).after 5 t) = _
  rw [after1_5]
  unfold out1_5
  rw [View.canon_unit_zero hz]
  simp only [View.ld_unit_zero (S := S5000x64) hz, View.ld_unit_zero (S := S5000x1) hz, View.ld_unit_zero (S := S1x64) hz,
    View.ld_unit_zero (S := S64x64) hz]
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (iblk1 V c 3 t) (iblk1 V c 4 t) (ix2 p q)
    = G (V c main_v45) (V c main_v30) (V c main_v47) (V c main_v46) (V c main_arg4) (((cfg1.win 5).blk t).view.emb (ix2 p q))
  refine (pay_apply (iblk1 V c 0 t) (iblk1 V c 1 t) (iblk1 V c 2 t) (iblk1 V c 3 t) (iblk1 V c 4 t) p q).trans ?_
  unfold G Cert.Spec.fused Cert.Spec.pre
  refine Finset.sum_congr rfl fun k _ => ?_
  refine congrArg₂ (fun a b : EReal => a * b) ?_ ?_
  · refine congrArg (fun a : EReal => max a 0) ?_
    refine congrArg₂ (fun a b : EReal => a + b) ?_ ?_
    · refine congrArg₂ (fun a b : EReal => a + b) ?_ ?_
      · show V c main_v45 (((cfg1.win 0).blk t).view.emb (ix2 p k)) = _
        rw [emb_agg t p k q]; rfl
      · refine congrArg₂ (fun a b : EReal => a * b) ?_ ?_
        · show V c main_v30 (((cfg1.win 1).blk t).view.emb (ix2 p k)) = _
          rw [emb_h t p k q]; rfl
        · show V c main_v47 (((cfg1.win 2).blk t).view.emb (ix2 p (0 : Fin 1))) = _
          rw [emb_scale t p q]; rfl
    · show V c main_v46 (((cfg1.win 3).blk t).view.emb (ix2 (0 : Fin 1) k)) = _
      rw [emb_bias t k]
  · show V c main_arg4 (((cfg1.win 4).blk t).view.emb (ix2 k q)) = _
    rw [emb_weights t p k q]; rfl

/-- An index is in point t's block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v48).slice (win1_5.rect t)).set ↔ _
  rw [View.set_slice_whole, Rect.mem_set_unit]
  exact Iff.rfl

/-- The 20 blocks cover the array: row r lies in block r / 5000. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The region's result array, after its 20 write-backs, is the fused layer of the arrays it found. -/
theorem final (c : Dev nD) : (dat1 V c).arrAt 5 cfg1.N = G (V c main_v45) (V c main_v30) (V c main_v47) (V c main_v46) (V c main_arg4) :=
  (dat1 V c).arrAt_eq_of_cover 5 (G (V c main_v45) (V c main_v30) (V c main_v47) (V c main_v46) (V c main_arg4))
    (fun t _ => flushed_eq V c t) cover

end Cert.KernelIdeal.Region1

end
-- ==== Proof.Region2.lean ====
/-
  The third kernel region: the second clamped graph-convolution layer followed by the last layer's product, in 20
  row blocks of 5000 nodes.

  Each grid point t loads rows 5000·t … 5000·t + 4999 of the edge sum agg, of the node features h and of the scale
  column s, together with the whole bias row b and the whole weight matrix W. On the block it forms
  (agg + h · s) + b with the column repeated along the rows and the row repeated down the columns, clamps it at zero,
  multiplies the result by the 64 × 2 matrix W on the matrix unit into a zero accumulator, and writes the 5000 × 2 block back. Read on
  the extended reals (where narrowing to bf16 is the identity), entry (p, q) of a block is the sum over k of
  max((agg[r, k] + h[r, k] · s[r]) + b[k], 0) · W[k, q] at the row r = 5000·t + p; the blocks tile the array, so the
  whole result is the fused layer of the specification, whatever the buffers hold when the region is entered.
-/
import proofs.«129854_j38517266710862_2_alg».proof.Proof.Gen.KernelIdeal.Frame
import proofs.«129854_j38517266710862_2_alg».proof.Proof.Spec
import proofs.«129854_j38517266710862_2_alg».proof.Proof.LibMatmul
import proofs.«129854_j38517266710862_2_alg».proof.Proof.LibColumn
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole fused layer as an array: entry i is the clamped layer times W at i's two coordinates. -/
def G (agg h : S100000x64.Idx → EReal) (s : S100000x1.Idx → EReal) (b : S1x64.Idx → EReal) (W : S64x2.Idx → EReal) :
    S100000x2.Idx → EReal :=
  fun i => Cert.Spec.fused agg h s b W ⟨(i 0).val, (i 0).isLt⟩ ⟨(i 1).val, (i 1).isLt⟩

theorem G_ix2 (agg h : S100000x64.Idx → EReal) (s : S100000x1.Idx → EReal) (b : S1x64.Idx → EReal) (W : S64x2.Idx → EReal)
    (p : Fin 100000) (q : Fin 2) : G agg h s b W (ix2 p q) = Cert.Spec.fused agg h s b W p q := rfl

/-- The block before its clamp at (p, k): the loaded edge sums plus the loaded features times the row's scale, plus
    the bias at column k. The same-shape casts are the identity, the scale column is repeated along its row and the
    bias row down its column. -/
theorem comb_apply (x0 x1 : FVec Ideal S5000x64 .f32) (x2 : FVec Ideal S5000x1 .f32) (x3 : FVec Ideal S1x64 .f32)
    (p : Fin 5000) (k : Fin 64) :
    addf (addf (shapeCast S5000x64 x0 shapeCasts_S5000x64_S5000x64)
        (mulf (shapeCast S5000x64 x1 shapeCasts_S5000x64_S5000x64)
          (broadcastTo S5000x64 (shapeCast S5000x1 x2 shapeCasts_S5000x1_S5000x1) broadcasts_S5000x1_S5000x64)))
      (broadcastTo S5000x64 (shapeCast S1x64 x3 shapeCasts_S1x64_S1x64) broadcasts_S1x64_S5000x64) (ix2 p k)
      = (x0 (ix2 p k) + x1 (ix2 p k) * x2 (ix2 p 0)) + x3 (ix2 0 k) := by
  rw [shapeCast_self x0, shapeCast_self x1, shapeCast_self x2, shapeCast_self x3]
  refine congrArg₂ (fun a b : EReal => a + b) ?_ ?_
  · refine congrArg₂ (fun a b : EReal => a + b) rfl ?_
    refine congrArg₂ (fun a b : EReal => a * b) rfl ?_
    exact Cert.Lib.Column.broadcastTo_a1_ab_apply x2 broadcasts_S5000x1_S5000x64 p k
  · exact broadcastTo_1b_ab_apply x3 broadcasts_S1x64_S5000x64 p k

/-- One block's stored value at (p, q): the sum over k of the clamped combination times the loaded weights. -/
theorem pay_apply (x0 x1 : Vec Ideal S5000x64 .f32) (x2 : Vec Ideal S5000x1 .f32) (x3 : Vec Ideal S1x64 .f32)
    (x4 : Vec Ideal S64x2 .f32) (p : Fin 5000) (q : Fin 2) :
    k2_pay1 x0 x1 x2 x3 x4 (ix2 p q)
      = ∑ k : Fin 64, max ((x0 (ix2 p k) + x1 (ix2 p k) * x2 (ix2 p 0)) + x3 (ix2 0 k)) 0 * x4 (ix2 k q) := by
  unfold k2_pay1
  refine (Cert.Bridge.LibMatmul.matmul_zero_apply (M := 5000) (K := 64) (N := 2) none _ _ p q).trans ?_
  refine Finset.sum_congr rfl fun k _ => ?_
  refine congrArg₂ (fun a b : EReal => a * b) ?_ rfl
  refine congrArg₂ (fun a b : EReal => max a b) (comb_apply x0 x1 x2 x3 p k) ?_
  exact Ideal.ofBits_zero_f32

/-- Over the 20 grid points: the edge sums, the features and the scale column move with the output rows, the bias
    row and the weights stay, and the output's block row is the point's number. -/
theorem idx_facts : ∀ t : Fin cfg2.N,
    (win2_0.index t (0 : Fin 2) = win2_5.index t (0 : Fin 2) ∧ win2_0.index t (1 : Fin 2) = 0)
    ∧ (win2_1.index t (0 : Fin 2) = win2_5.index t (0 : Fin 2) ∧ win2_1.index t (1 : Fin 2) = 0)
    ∧ (win2_2.index t (0 : Fin 2) = win2_5.index t (0 : Fin 2) ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ win2_5.index t (1 : Fin 2) = 0 ∧ win2_5.index t (0 : Fin 2) ≤ 19 :=
  (by decide +kernel : ∀ t : Fin grid2.N, _)

/-- Every block row is some point's. -/
theorem idx_onto : ∀ q0 : Fin 20, ∃ t : Fin cfg2.N, win2_5.index t = ![q0.val, 0] :=
  (by decide +kernel : ∀ q0 : Fin 20, ∃ t : Fin grid2.N, win2_5.index t = ![q0.val, 0])

/-- Where the loaded block of edge sums sits in agg: row p of block t is row (block row of the output) · 5000 + p,
    column k. -/
theorem emb_agg (t : Fin cfg2.N) (p : Fin 5000) (k : Fin 64) (q : Fin 2) :
    ((cfg2.win 0).blk t).view.emb (ix2 p k)
      = ix2 ⟨((((cfg2.win 5).blk t).view.emb (ix2 p q)) 0).val, ((((cfg2.win 5).blk t).view.emb (ix2 p q)) 0).isLt⟩ k := by
  obtain ⟨⟨a0, a1⟩, ⟨b0, b1⟩, ⟨c0, c1⟩, ⟨d0, d1⟩, ⟨e0, e1⟩, f1, f0⟩ := idx_facts t
  funext a; apply Fin.ext
  match a with
  | ⟨0, _⟩ => show win2_0.index t (0 : Fin 2) * 5000 + 1 * p.val = win2_5.index t (0 : Fin 2) * 5000 + 1 * p.val; omega
  | ⟨1, _⟩ => show win2_0.index t (1 : Fin 2) * 64 + 1 * k.val = k.val; omega

/-- The loaded block of features sits in h at the same rows and columns. -/
theorem emb_h (t : Fin cfg2.N) (p : Fin 5000) (k : Fin 64) (q : Fin 2) :
    ((cfg2.win 1).blk t).view.emb (ix2 p k)
      = ix2 ⟨((((cfg2.win 5).blk t).view.emb (ix2 p q)) 0).val, ((((cfg2.win 5).blk t).view.emb (ix2 p q)) 0).isLt⟩ k := by
  obtain ⟨⟨a0, a1⟩, ⟨b0, b1⟩, ⟨c0, c1⟩, ⟨d0, d1⟩, ⟨e0, e1⟩, f1, f0⟩ := idx_facts t
  funext a; apply Fin.ext
  match a with
  | ⟨0, _⟩ => show win2_1.index t (0 : Fin 2) * 5000 + 1 * p.val = win2_5.index t (0 : Fin 2) * 5000 + 1 * p.val; omega
  | ⟨1, _⟩ => show win2_1.index t (1 : Fin 2) * 64 + 1 * k.val = k.val; omega

/-- The loaded block of the scale column sits in s at the same rows, in its one column. -/
theorem emb_scale (t : Fin cfg2.N) (p : Fin 5000) (q : Fin 2) :
    ((cfg2.win 2).blk t).view.emb (ix2 p (0 : Fin 1))
      = ix2 ⟨((((cfg2.win 5).blk t).view.emb (ix2 p q)) 0).val, ((((cfg2.win 5).blk t).view.emb (ix2 p q)) 0).isLt⟩ (0 : Fin 1) := by
  obtain ⟨⟨a0, a1⟩, ⟨b0, b1⟩, ⟨c0, c1⟩, ⟨d0, d1⟩, ⟨e0, e1⟩, f1, f0⟩ := idx_facts t
  funext a; apply Fin.ext
  match a with
  | ⟨0, _⟩ => show win2_2.index t (0 : Fin 2) * 5000 + 1 * p.val = win2_5.index t (0 : Fin 2) * 5000 + 1 * p.val; omega
  | ⟨1, _⟩ => show win2_2.index t (1 : Fin 2) * 1 + 1 * 0 = 0; omega

/-- The bias row is loaded whole: entry (0, k) of the loaded block is b[0, k]. -/
theorem emb_bias (t : Fin cfg2.N) (k : Fin 64) :
    ((cfg2.win 3).blk t).view.emb (ix2 (0 : Fin 1) k) = ix2 (0 : Fin 1) k := by
  obtain ⟨⟨a0, a1⟩, ⟨b0, b1⟩, ⟨c0, c1⟩, ⟨d0, d1⟩, ⟨e0, e1⟩, f1, f0⟩ := idx_facts t
  funext a; apply Fin.ext
  match a with
  | ⟨0, _⟩ => show win2_3.index t (0 : Fin 2) * 1 + 1 * 0 = 0; omega
  | ⟨1, _⟩ => show win2_3.index t (1 : Fin 2) * 64 + 1 * k.val = k.val; omega

/-- The weights are loaded whole: entry (k, q) of the loaded block is W[k, output column]. -/
theorem emb_weights (t : Fin cfg2.N) (p : Fin 5000) (k : Fin 64) (q : Fin 2) :
    ((cfg2.win 4).blk t).view.emb (ix2 k q)
      = ix2 k ⟨((((cfg2.win 5).blk t).view.emb (ix2 p q)) 1).val, ((((cfg2.win 5).blk t).view.emb (ix2 p q)) 1).isLt⟩ := by
  obtain ⟨⟨a0, a1⟩, ⟨b0, b1⟩, ⟨c0, c1⟩, ⟨d0, d1⟩, ⟨e0, e1⟩, f1, f0⟩ := idx_facts t
  funext a; apply Fin.ext
  match a with
  | ⟨0, _⟩ => show win2_4.index t (0 : Fin 2) * 64 + 1 * k.val = k.val; omega
  | ⟨1, _⟩ => show win2_4.index t (1 : Fin 2) * 2 + 1 * q.val = win2_5.index t (1 : Fin 2) * 2 + 1 * q.val; omega

/-- What point t writes back is block t of the fused layer of the arrays the region finds. -/
theorem flushed_eq (c : Dev nD) (t : Fin cfg2.N) :
    (dat2 V c).flushed 5 t = ((cfg2.win 5).blk t).view.read (Elt Ideal)
      (G (V c main_v63) (V c main_v48) (V c main_v65) (V c main_v64) (V c main_arg6)) := by
  show (cfg2.win 5).cut (grid2.coords t) ((dat2 V c).after 5 t) = _
  rw [after2_5]
  unfold out2_5
  rw [View.canon_unit_zero hz]
  simp only [View.ld_unit_zero (S := S5000x64) hz, View.ld_unit_zero (S := S5000x1) hz, View.ld_unit_zero (S := S1x64) hz,
    View.ld_unit_zero (S := S64x2) hz]
  funext j
  obtain ⟨p, q, rfl⟩ : ∃ (p : Fin 5000) (q : Fin 2), j = ix2 p q := ⟨j 0, j 1, eq_ix2 j⟩
  show k2_pay1 (iblk2 V c 0 t) (iblk2 V c 1 t) (iblk2 V c 2 t) (iblk2 V c 3 t) (iblk2 V c 4 t) (ix2 p q)
    = G (V c main_v63) (V c main_v48) (V c main_v65) (V c main_v64) (V c main_arg6) (((cfg2.win 5).blk t).view.emb (ix2 p q))
  refine (pay_apply (iblk2 V c 0 t) (iblk2 V c 1 t) (iblk2 V c 2 t) (iblk2 V c 3 t) (iblk2 V c 4 t) p q).trans ?_
  unfold G Cert.Spec.fused Cert.Spec.pre
  refine Finset.sum_congr rfl fun k _ => ?_
  refine congrArg₂ (fun a b : EReal => a * b) ?_ ?_
  · refine congrArg (fun a : EReal => max a 0) ?_
    refine congrArg₂ (fun a b : EReal => a + b) ?_ ?_
    · refine congrArg₂ (fun a b : EReal => a + b) ?_ ?_
      · show V c main_v63 (((cfg2.win 0).blk t).view.emb (ix2 p k)) = _
        rw [emb_agg t p k q]; rfl
      · refine congrArg₂ (fun a b : EReal => a * b) ?_ ?_
        · show V c main_v48 (((cfg2.win 1).blk t).view.emb (ix2 p k)) = _
          rw [emb_h t p k q]; rfl
        · show V c main_v65 (((cfg2.win 2).blk t).view.emb (ix2 p (0 : Fin 1))) = _
          rw [emb_scale t p q]; rfl
    · show V c main_v64 (((cfg2.win 3).blk t).view.emb (ix2 (0 : Fin 1) k)) = _
      rw [emb_bias t k]
  · show V c main_arg6 (((cfg2.win 4).blk t).view.emb (ix2 k q)) = _
    exact congrArg (V c main_arg6) (emb_weights t p k q)

/-- An index is in point t's block iff each coordinate is in the block's range on its axis. -/
theorem mem_blk (t : Fin cfg2.N) (i : S100000x2.Idx) :
    i ∈ ((cfg2.win 5).blk t).view.set ↔ ∀ a : Fin 2, win2_5.index t a * S5000x2.size a ≤ (i a).val ∧ (i a).val < win2_5.index t a * S5000x2.size a + S5000x2.size a := by
  show i ∈ ((View.whole main_v66).slice (win2_5.rect t)).set ↔ _
  rw [View.set_slice_whole, Rect.mem_set_unit]
  exact Iff.rfl

/-- The 20 blocks cover the array: row r lies in block r / 5000. -/
theorem cover (i : S100000x2.Idx) : ∃ t : Fin cfg2.N, (cfg2.win 5).flush t = true ∧ i ∈ ((cfg2.win 5).blk t).view.set := by
  have hi0 : (i 0).val < 100000 := (i 0).isLt
  have hi1 : (i 1).val < 2 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 2 ≤ (i 1).val ∧ (i 1).val < win2_5.index t (1 : Fin 2) * 2 + 2; omega

/-- The region's result array, after its 20 write-backs, is the fused layer of the arrays it found. -/
theorem final (c : Dev nD) : (dat2 V c).arrAt 5 cfg2.N = G (V c main_v63) (V c main_v48) (V c main_v65) (V c main_v64) (V c main_arg6) :=
  (dat2 V c).arrAt_eq_of_cover 5 (G (V c main_v63) (V c main_v48) (V c main_v65) (V c main_v64) (V c main_arg6))
    (fun t _ => flushed_eq V c t) cover

end Cert.KernelIdeal.Region2

end
-- ==== Proof.Region3.lean ====
/-
  The last kernel region: the third layer's combination, computed in 20 row blocks of 5000 nodes.

  Each grid point t loads rows 5000·t … 5000·t + 4999 of the edge sum agg, of the product h and of the scale column
  s, and the whole bias row b, and writes back the 5000 × 2 block whose entry (p, q) is
      (agg[5000·t + p, q] + h[5000·t + p, q] · s[5000·t + p, 0]) + b[0, q]:
  the column is broadcast along the rows and the bias row along the columns, and the casts to the same shape are the
  identity. The blocks tile the array, so the whole result is the layer before its clamp, whatever the buffers hold
  when the region is entered.
-/
import proofs.«129854_j38517266710862_2_alg».proof.Proof.Gen.KernelIdeal.Frame
import proofs.«129854_j38517266710862_2_alg».proof.Proof.Spec
import proofs.«129854_j38517266710862_2_alg».proof.Proof.LibColumn
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole layer before its clamp as an array: entry i is the combination at i's two coordinates. -/
def G (agg h : S100000x2.Idx → EReal) (s : S100000x1.Idx → EReal) (b : S1x2.Idx → EReal) : S100000x2.Idx → EReal :=
  fun i => Cert.Spec.pre agg h s b ⟨(i 0).val, (i 0).isLt⟩ ⟨(i 1).val, (i 1).isLt⟩

theorem G_ix2 (agg h : S100000x2.Idx → EReal) (s : S100000x1.Idx → EReal) (b : S1x2.Idx → EReal) (p : Fin 100000) (q : Fin 2) :
    G agg h s b (ix2 p q) = Cert.Spec.pre agg h s b p q := rfl

/-- One block's stored value at (p, q): the loaded edge sum, plus the loaded product times the loaded scale of row p,
    plus the bias of column q. -/
theorem pay_apply (x0 x1 : Vec Ideal S5000x2 .f32) (x2 : Vec Ideal S5000x1 .f32) (x3 : Vec Ideal S1x2 .f32) (p : Fin 5000) (q : Fin 2) :
    k3_pay1 x0 x1 x2 x3 (ix2 p q) = (x0 (ix2 p q) + x1 (ix2 p q) * x2 (ix2 p 0)) + x3 (ix2 0 q) := by
  unfold k3_pay1
  refine congrArg₂ (fun a b : EReal => a + b) ?_ ?_
  · refine congrArg₂ (fun a b : EReal => a + b) ?_ ?_
    · exact congrFun (shapeCast_self x0 _) (ix2 p q)
    · refine congrArg₂ (fun a b : EReal => a * b) ?_ ?_
      · exact congrFun (shapeCast_self x1 _) (ix2 p q)
      · refine (Cert.Lib.Column.broadcastTo_a1_ab_apply _ _ p q).trans ?_
        exact congrFun (shapeCast_self x2 _) (ix2 p 0)
  · refine (broadcastTo_1b_ab_apply _ _ p q).trans ?_
    exact congrFun (shapeCast_self x3 _) (ix2 0 q)

/-- Over the 20 grid points: the three row-blocked inputs move with the output rows, the bias stays, and the output's
    block row is the point's number. -/
theorem idx_facts : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (1 : Fin 2) = 0 ∧ win3_4.index t (0 : Fin 2) ≤ 19 :=
  (by decide +kernel : ∀ t : Fin grid3.N, _)

/-- Every block row is some point's. -/
theorem idx_onto : ∀ q0 : Fin 20, ∃ t : Fin cfg3.N, win3_4.index t = ![q0.val, 0] :=
  (by decide +kernel : ∀ q0 : Fin 20, ∃ t : Fin grid3.N, win3_4.index t = ![q0.val, 0])

/-- Where the loaded edge-sum block sits in agg: entry (p, q) of block t is at the output block's position. -/
theorem emb_agg (t : Fin cfg3.N) (p : Fin 5000) (q : Fin 2) :
    ((cfg3.win 0).blk t).view.emb (ix2 p q)
      = ix2 ⟨((((cfg3.win 4).blk t).view.emb (ix2 p q)) 0).val, ((((cfg3.win 4).blk t).view.emb (ix2 p q)) 0).isLt⟩
            ⟨((((cfg3.win 4).blk t).view.emb (ix2 p q)) 1).val, ((((cfg3.win 4).blk t).view.emb (ix2 p q)) 1).isLt⟩ := by
  obtain ⟨e0, e1, e2, e3, e4, e5, e6, e7, e8, e9⟩ := idx_facts t
  funext a; apply Fin.ext
  match a with
  | ⟨0, _⟩ => show win3_0.index t (0 : Fin 2) * 5000 + 1 * p.val = win3_4.index t (0 : Fin 2) * 5000 + 1 * p.val; omega
  | ⟨1, _⟩ => show win3_0.index t (1 : Fin 2) * 2 + 1 * q.val = win3_4.index t (1 : Fin 2) * 2 + 1 * q.val; omega

/-- Where the loaded product block sits in h: likewise at the output block's position. -/
theorem emb_h (t : Fin cfg3.N) (p : Fin 5000) (q : Fin 2) :
    ((cfg3.win 1).blk t).view.emb (ix2 p q)
      = ix2 ⟨((((cfg3.win 4).blk t).view.emb (ix2 p q)) 0).val, ((((cfg3.win 4).blk t).view.emb (ix2 p q)) 0).isLt⟩
            ⟨((((cfg3.win 4).blk t).view.emb (ix2 p q)) 1).val, ((((cfg3.win 4).blk t).view.emb (ix2 p q)) 1).isLt⟩ := by
  obtain ⟨e0, e1, e2, e3, e4, e5, e6, e7, e8, e9⟩ := idx_facts t
  funext a; apply Fin.ext
  match a with
  | ⟨0, _⟩ => show win3_1.index t (0 : Fin 2) * 5000 + 1 * p.val = win3_4.index t (0 : Fin 2) * 5000 + 1 * p.val; omega
  | ⟨1, _⟩ => show win3_1.index t (1 : Fin 2) * 2 + 1 * q.val = win3_4.index t (1 : Fin 2) * 2 + 1 * q.val; omega

/-- Where the loaded scale block sits in s: row p of block t is the output row, in the one column. -/
theorem emb_scale (t : Fin cfg3.N) (p : Fin 5000) (q : Fin 2) :
    ((cfg3.win 2).blk t).view.emb (ix2 p (0 : Fin 1))
      = ix2 ⟨((((cfg3.win 4).blk t).view.emb (ix2 p q)) 0).val, ((((cfg3.win 4).blk t).view.emb (ix2 p q)) 0).isLt⟩ (0 : Fin 1) := by
  obtain ⟨e0, e1, e2, e3, e4, e5, e6, e7, e8, e9⟩ := idx_facts t
  funext a; apply Fin.ext
  match a with
  | ⟨0, _⟩ => show win3_2.index t (0 : Fin 2) * 5000 + 1 * p.val = win3_4.index t (0 : Fin 2) * 5000 + 1 * p.val; omega
  | ⟨1, _⟩ => show win3_2.index t (1 : Fin 2) * 1 + 1 * 0 = 0; omega

/-- The bias row is loaded whole: entry (0, q) of the loaded block is b[0, output column]. -/
theorem emb_bias (t : Fin cfg3.N) (p : Fin 5000) (q : Fin 2) :
    ((cfg3.win 3).blk t).view.emb (ix2 (0 : Fin 1) q)
      = ix2 (0 : Fin 1) ⟨((((cfg3.win 4).blk t).view.emb (ix2 p q)) 1).val, ((((cfg3.win 4).blk t).view.emb (ix2 p q)) 1).isLt⟩ := by
  obtain ⟨e0, e1, e2, e3, e4, e5, e6, e7, e8, e9⟩ := idx_facts t
  funext a; apply Fin.ext
  match a with
  | ⟨0, _⟩ => show win3_3.index t (0 : Fin 2) * 1 + 1 * 0 = 0; omega
  | ⟨1, _⟩ => show win3_3.index t (1 : Fin 2) * 2 + 1 * q.val = win3_4.index t (1 : Fin 2) * 2 + 1 * q.val; omega

/-- What point t writes back is block t of the combination of the arrays the region finds. -/
theorem flushed_eq (c : Dev nD) (t : Fin cfg3.N) :
    (dat3 V c).flushed 4 t
      = ((cfg3.win 4).blk t).view.read (Elt Ideal) (G (V c main_v81) (V c main_v66) (V c main_v83) (V c main_v82)) := by
  show (cfg3.win 4).cut (grid3.coords t) ((dat3 V c).after 4 t) = _
  rw [after3_4]
  unfold out3_4
  rw [View.canon_unit_zero hz]
  simp only [View.ld_unit_zero (S := S5000x2) hz, View.ld_unit_zero (S := S5000x1) hz, View.ld_unit_zero (S := S1x2) hz]
  funext j
  obtain ⟨p, q, rfl⟩ : ∃ (p : Fin 5000) (q : Fin 2), j = ix2 p q := ⟨j 0, j 1, eq_ix2 j⟩
  show k3_pay1 (iblk3 V c 0 t) (iblk3 V c 1 t) (iblk3 V c 2 t) (iblk3 V c 3 t) (ix2 p q)
    = G (V c main_v81) (V c main_v66) (V c main_v83) (V c main_v82) (((cfg3.win 4).blk t).view.emb (ix2 p q))
  refine (pay_apply (iblk3 V c 0 t) (iblk3 V c 1 t) (iblk3 V c 2 t) (iblk3 V c 3 t) p q).trans ?_
  unfold G Cert.Spec.pre
  refine congrArg₂ (fun a b : EReal => a + b) ?_ ?_
  · refine congrArg₂ (fun a b : EReal => a + b) ?_ ?_
    · show V c main_v81 (((cfg3.win 0).blk t).view.emb (ix2 p q)) = _
      rw [emb_agg t p q]; rfl
    · refine congrArg₂ (fun a b : EReal => a * b) ?_ ?_
      · show V c main_v66 (((cfg3.win 1).blk t).view.emb (ix2 p q)) = _
        rw [emb_h t p q]; rfl
      · show V c main_v83 (((cfg3.win 2).blk t).view.emb (ix2 p (0 : Fin 1))) = _
        rw [emb_scale t p q]; rfl
  · show V c main_v82 (((cfg3.win 3).blk t).view.emb (ix2 (0 : Fin 1) q)) = _
    exact congrArg (fun i => V c main_v82 i) (emb_bias t p q)

/-- An index is in point t's block iff each coordinate is in the block's range on its axis. -/
theorem mem_blk (t : Fin cfg3.N) (i : S100000x2.Idx) :
    i ∈ ((cfg3.win 4).blk t).view.set ↔ ∀ a : Fin 2, win3_4.index t a * S5000x2.size a ≤ (i a).val ∧ (i a).val < win3_4.index t a * S5000x2.size a + S5000x2.size a := by
  show i ∈ ((View.whole main_v84).slice (win3_4.rect t)).set ↔ _
  rw [View.set_slice_whole, Rect.mem_set_unit]
  exact Iff.rfl

/-- The 20 blocks cover the array: row r lies in block r / 5000. -/
theorem cover (i : S100000x2.Idx) : ∃ t : Fin cfg3.N, (cfg3.win 4).flush t = true ∧ i ∈ ((cfg3.win 4).blk t).view.set := by
  have hi0 : (i 0).val < 100000 := (i 0).isLt
  have hi1 : (i 1).val < 2 := (i 1).isLt
  obtain ⟨t, ht⟩ := idx_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 2 ≤ (i 1).val ∧ (i 1).val < win3_4.index t (1 : Fin 2) * 2 + 2; omega

/-- The region's result array, after its 20 write-backs, is the combination of the arrays it found. -/
theorem final (c : Dev nD) :
    (dat3 V c).arrAt 4 cfg3.N = G (V c main_v81) (V c main_v66) (V c main_v83) (V c main_v82) :=
  (dat3 V c).arrAt_eq_of_cover 4 (G (V c main_v81) (V c main_v66) (V c main_v83) (V c main_v82))
    (fun t _ => flushed_eq V c t) cover

end Cert.KernelIdeal.Region3

end
-- ==== Proof.LibRowGather.lean ====
/-
  A row gather read at an index. For an operand of N rows and C columns and one start index per result row
  (start indices of shape [E, 1]), the gather that collapses the row axis and keeps whole rows (what x[idx] lowers
  to for a two-dimensional x) reads, at result entry (e, q), the operand's entry (r, q), where r is the start index
  of row e read as a signed integer and clamped into [0, N - 1]. Any extents, any element type, any index width.
-/
import Idealize.ShloMosaic.PureOps.ShapeOps
import Idealize.ShloMosaic.Lib.ValueIdx

noncomputable section

namespace Cert.Bridge.RowGather

open Idealize.ShloMosaic Idealize.ShloMosaic.ValueIdx

variable {α : Type}

/-- The dimension numbers of a row gather: operand [N, C], start indices [E, 1], result [E, C]; the row axis is
    collapsed and addressed by the one component of the start index, the column axis is kept whole. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index addresses: the index read signed, clamped into [0, N - 1]. -/
def rowOf {N w : Nat} (hN : 0 < N) (v : BitVec w) : Fin N := ⟨min v.toInt.toNat (N - 1), by omega⟩

/-- The gather at (e, q) is the operand at (the clamped start index of row e, q). -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowDims N C E wf) x idx (ix2 e q) = x (ix2 (rowOf hN (idx (ix2 e (0 : Fin 1)))) q) := by
  have hne : ¬ ((1 : Fin 2) = 0) := by decide
  -- the row coordinate: the clamped start; no batching coordinate, no offset on a collapsed axis
  have h0 : ((rowDims N C E wf).operandIdx (ix2 e q) idx 0).val = min (idx (ix2 e (0 : Fin 1))).toInt.toNat (N - 1) := by
    show (rowDims N C E wf).start (ix2 e q) idx 0 + (rowDims N C E wf).batchCoord (ix2 e q) 0
        + (rowDims N C E wf).offCoord (ix2 e q) 0 = _
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e q) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- the column coordinate: no start (the axis is not addressed), no batching, the result's own column as offset
  have h1 : ((rowDims N C E wf).operandIdx (ix2 e q) idx 1).val = q.val := by
    show (rowDims N C E wf).start (ix2 e q) idx 1 + (rowDims N C E wf).batchCoord (ix2 e q) 1
        + (rowDims N C E wf).offCoord (ix2 e q) 1 = _
    rw [GatherDims.batchCoord_eq_zero _ _ _ List.not_mem_nil]
    unfold GatherDims.start
    rw [dif_neg (show (1 : Fin 2) ∉ (rowDims N C E wf).startIndexMap from
      fun h => hne (List.mem_singleton.mp h))]
    unfold GatherDims.offCoord
    rw [dif_pos (show (1 : Fin 2) ∈ (rowDims N C E wf).sKept from
      (GatherDims.mem_sKept _ _).mpr ⟨fun h => hne (List.mem_singleton.mp h), List.not_mem_nil⟩)]
    simp only [Nat.zero_add, Nat.add_zero]
    rfl
  unfold Host.gather
  congr 1
  funext a
  refine Fin.ext ?_
  match a with
  | ⟨0, _⟩ => exact h0
  | ⟨1, _⟩ => exact h1

end Cert.Bridge.RowGather

end
-- ==== Proof.LibSegmentSum.lean ====
/-
  Sums by segment. At the extended reals the accumulating scatter is an exact sum: every operand entry plus the sum
  of the update entries landing on it. This file reads a ROW scatter (operand of N rows and C columns, one scatter
  index per update row, update row e added to the operand row its index names) at an entry as the sum, over the
  update rows whose index is that row, of their entries in that column; shows that summing projected rows by
  segment is projecting the rows summed by segment (the entries summed being non-negative, the projection's
  weights arbitrary extended reals); and shows that dividing by the larger of a count of ones and 1 is multiplying
  by a non-negative real. Any extents, any index width.
-/
import Idealize.ShloMosaic.PureOps.Ideal
import Idealize.ShloMosaic.PureOps.Ideal.Laws
import Idealize.ShloMosaic.PureOps.ShapeOps
import Idealize.ShloMosaic.Lib.ValueIdx
import proofs.«129854_j38517266710862_2_alg».proof.Proof.LibRowGather

noncomputable section

namespace Cert.Lib.SegmentSum

open Idealize.ShloMosaic Idealize.ShloMosaic.ValueIdx
open scoped BigOperators

/-- An update index lands on operand index i exactly when, on every operand axis, its start plus its window
    coordinate is i's coordinate. -/
theorem resultIdx?_eq_some_iff {s si u : Shape} {w : Nat} (d : ScatterDims s si u) (j : u.Idx) (idx : IVec si w)
    (i : s.Idx) :
    d.resultIdx? j idx = some i ↔ ∀ a, d.start j idx a + (d.window j a : Int) = ((i a).val : Int) := by
  unfold ScatterDims.resultIdx?
  split_ifs with h
  · constructor
    · intro heq a
      have h' := Option.some.inj heq
      rw [← h']
      exact (Int.toNat_of_nonneg (h a).1).symm
    · intro hall
      congr 1
      funext a
      refine Fin.ext ?_
      show (d.start j idx a + (d.window j a : Int)).toNat = (i a).val
      rw [hall a]
      exact Int.toNat_natCast _
  · constructor
    · intro heq; cases heq
    · intro hall
      exfalso
      apply h
      intro a
      rw [hall a]
      exact ⟨Int.natCast_nonneg _, Int.ofNat_lt.mpr (i a).isLt⟩

/-- The dimension numbers of a row scatter: operand [N, C], scatter indices [E, 1], updates [E, C]; update row e is
    added to the operand row its one index component names, column by column. -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows

variable {N C E w : Nat} (wf : ScatterDims.WF ⟨2, ![N, C]⟩ ⟨2, ![E, 1]⟩ ⟨2, ![E, C]⟩ [1] [0] [0] 1)

/-- On the row axis the window of update (e, q') starts at the scatter index of update row e, read signed. -/
theorem start_row (idx : IVec ⟨2, ![E, 1]⟩ w) (e : Fin E) (q' : Fin C) :
    (rowDims N C E wf).start (ix2 e q') idx 0 = (idx (ix2 e (0 : Fin 1))).toInt := by
  unfold ScatterDims.start
  rw [dif_pos (show (0 : Fin 2) ∈ (rowDims N C E wf).scatterDimsToOperandDims from List.mem_singleton.mpr rfl)]
  have hsi : (rowDims N C E wf).siIdx (ix2 e q') ⟨List.idxOf (0 : Fin 2) (rowDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which no scatter index addresses, every window starts at 0. -/
theorem start_col (idx : IVec ⟨2, ![E, 1]⟩ w) (j : (⟨2, ![E, C]⟩ : Shape).Idx) :
    (rowDims N C E wf).start j idx 1 = 0 := by
  unfold ScatterDims.start
  rw [dif_neg (show (1 : Fin 2) ∉ (rowDims N C E wf).scatterDimsToOperandDims from
    fun h => (show ¬ ((1 : Fin 2) = 0) by decide) (List.mem_singleton.mp h))]

/-- The row axis is an inserted axis: the window coordinate there is 0. -/
theorem window_row (j : (⟨2, ![E, C]⟩ : Shape).Idx) : (rowDims N C E wf).window j 0 = 0 := by
  unfold ScatterDims.window
  rw [dif_neg (show (0 : Fin 2) ∉ (rowDims N C E wf).sKept from
    fun h => of_decide_eq_true (List.mem_filter.mp h).2 (List.mem_singleton.mpr rfl))]

/-- On the column axis the window coordinate of update (e, q') is q'. -/
theorem window_col (e : Fin E) (q' : Fin C) : (rowDims N C E wf).window (ix2 e q') 1 = q'.val := by
  unfold ScatterDims.window
  rw [dif_pos (show (1 : Fin 2) ∈ (rowDims N C E wf).sKept from
    List.mem_filter.mpr ⟨List.mem_finRange _, decide_eq_true (fun h => (show ¬ ((1 : Fin 2) = 0) by decide) (List.mem_singleton.mp h))⟩)]
  rfl

/-- Update (e, q') lands on operand entry (n, q) exactly when the scatter index of update row e is n and q' = q. -/
theorem lands_iff (idx : IVec ⟨2, ![E, 1]⟩ w) (e : Fin E) (q' : Fin C) (n : Fin N) (q : Fin C) :
    (rowDims N C E wf).resultIdx? (ix2 e q') idx = some (ix2 n q)
      ↔ ((idx (ix2 e (0 : Fin 1))).toInt = (n.val : Int) ∧ q' = q) := by
  refine (resultIdx?_eq_some_iff _ _ _ _).trans (Fin.forall_fin_two.trans ?_)
  show ((rowDims N C E wf).start (ix2 e q') idx 0 + ((rowDims N C E wf).window (ix2 e q') 0 : Int) = (n.val : Int)
      ∧ (rowDims N C E wf).start (ix2 e q') idx 1 + ((rowDims N C E wf).window (ix2 e q') 1 : Int) = (q.val : Int)) ↔ _
  rw [start_row, start_col, window_row, window_col]
  constructor
  · rintro ⟨h0, h1⟩
    exact ⟨by simpa using h0, Fin.ext (by simpa using h1)⟩
  · rintro ⟨h0, rfl⟩
    exact ⟨by simpa using h0, by simp⟩

/-- The row scatter at (n, q): the operand's entry plus the sum, over the update rows whose scatter index (read
    signed) is n, of their entries in column q. Update rows whose index names no row of the operand contribute
    nowhere. -/
theorem scatterAdd_rows_apply (x : (⟨2, ![N, C]⟩ : Shape).Idx → EReal) (idx : IVec ⟨2, ![E, 1]⟩ w)
    (u : (⟨2, ![E, C]⟩ : Shape).Idx → EReal) (n : Fin N) (q : Fin C) :
    Host.scatterAdd (F := Ideal) (φ := .f32) (rowDims N C E wf) x idx u (ix2 n q)
      = x (ix2 n q) + ∑ e ∈ Finset.univ.filter (fun e : Fin E => (idx (ix2 e (0 : Fin 1))).toInt = (n.val : Int)),
          u (ix2 e q) := by
  show x (ix2 n q) + ∑ j ∈ Finset.univ.filter (fun j => (rowDims N C E wf).resultIdx? j idx = some (ix2 n q)), u j = _
  congr 1
  rw [Finset.sum_filter, sum_idx2, Finset.sum_filter]
  refine Finset.sum_congr rfl (fun e _ => ?_)
  simp only [lands_iff]
  by_cases hc : (idx (ix2 e (0 : Fin 1))).toInt = (n.val : Int)
  · simp [hc]
  · simp [hc]

end Rows

/-- A sum of non-negative extended reals times any extended real is the sum of the products: multiplication
    distributes from the right over sums of non-negative terms, whatever the factor. -/
theorem sum_mul_of_nonneg {ι : Type*} (s : Finset ι) (a : ι → EReal) (ha : ∀ i ∈ s, 0 ≤ a i) (c : EReal) :
    (∑ i ∈ s, a i) * c = ∑ i ∈ s, a i * c := by
  classical
  induction s using Finset.induction_on with
  | empty => simp
  | insert i s hi ih =>
    rw [Finset.sum_insert hi, Finset.sum_insert hi,
      EReal.right_distrib_of_nonneg (ha i (Finset.mem_insert_self i s))
        (Finset.sum_nonneg fun j hj => ha j (Finset.mem_insert_of_mem hj)),
      ih (fun j hj => ha j (Finset.mem_insert_of_mem hj))]

/-- Summing projected rows by segment is projecting the rows summed by segment. With H non-negative, P = H · W
    entrywise as sums over the inner axis (W any extended reals), rows gathered at src and scattered into zeros at
    dst: at node n and column q both sides are the sum over the edges e with dst e = n and over the inner index k of
    H[row(src e), k] · W[k, q]; the two finite sums are exchanged and W[k, q] is taken out of the sum over the
    edges, whose terms are non-negative. -/
theorem segment_project {N K Q E w : Nat} (hN : 0 < N)
    (wfK : ScatterDims.WF ⟨2, ![N, K]⟩ ⟨2, ![E, 1]⟩ ⟨2, ![E, K]⟩ [1] [0] [0] 1)
    (wfQ : ScatterDims.WF ⟨2, ![N, Q]⟩ ⟨2, ![E, 1]⟩ ⟨2, ![E, Q]⟩ [1] [0] [0] 1)
    (wgK : GatherDims.WF ⟨2, ![N, K]⟩ ⟨2, ![E, 1]⟩ ⟨2, ![E, K]⟩ [1] [0] [] [0] [] 1 ![1, K])
    (wgQ : GatherDims.WF ⟨2, ![N, Q]⟩ ⟨2, ![E, 1]⟩ ⟨2, ![E, Q]⟩ [1] [0] [] [0] [] 1 ![1, Q])
    (H : (⟨2, ![N, K]⟩ : Shape).Idx → EReal) (hH : ∀ i, 0 ≤ H i) (W : (⟨2, ![K, Q]⟩ : Shape).Idx → EReal)
    (P : (⟨2, ![N, Q]⟩ : Shape).Idx → EReal)
    (hP : ∀ (m : Fin N) (q : Fin Q), P (ix2 m q) = ∑ k : Fin K, H (ix2 m k) * W (ix2 k q))
    (ZK : (⟨2, ![N, K]⟩ : Shape).Idx → EReal) (hZK : ∀ i, ZK i = 0)
    (ZQ : (⟨2, ![N, Q]⟩ : Shape).Idx → EReal) (hZQ : ∀ i, ZQ i = 0)
    (src dst : IVec ⟨2, ![E, 1]⟩ w) (n : Fin N) (q : Fin Q) :
    Host.scatterAdd (F := Ideal) (φ := .f32) (rowDims N Q E wfQ) ZQ dst
        (Host.gather (Cert.Bridge.RowGather.rowDims N Q E wgQ) P src) (ix2 n q)
      = ∑ k : Fin K, Host.scatterAdd (F := Ideal) (φ := .f32) (rowDims N K E wfK) ZK dst
          (Host.gather (Cert.Bridge.RowGather.rowDims N K E wgK) H src) (ix2 n k) * W (ix2 k q) := by
  rw [scatterAdd_rows_apply wfQ, hZQ, zero_add]
  refine (Finset.sum_congr rfl (fun e _ =>
    (Cert.Bridge.RowGather.gather_rows_apply hN wgQ P src e q).trans (hP _ _))).trans ?_
  rw [Finset.sum_comm]
  refine Finset.sum_congr rfl (fun k _ => ?_)
  have hk : Host.scatterAdd (F := Ideal) (φ := .f32) (rowDims N K E wfK) ZK dst
        (Host.gather (Cert.Bridge.RowGather.rowDims N K E wgK) H src) (ix2 n k)
      = ∑ e ∈ Finset.univ.filter (fun e : Fin E => (dst (ix2 e (0 : Fin 1))).toInt = (n.val : Int)),
          H (ix2 (Cert.Bridge.RowGather.rowOf hN (src (ix2 e (0 : Fin 1)))) k) := by
    rw [scatterAdd_rows_apply wfK, hZK, zero_add]
    exact Finset.sum_congr rfl (fun e _ => Cert.Bridge.RowGather.gather_rows_apply hN wgK H src e k)
  rw [hk, sum_mul_of_nonneg _ _ (fun e _ => hH _)]

/-- A sum of ones over a finite set is a natural number, so a scatter of ones into zeros holds a count at every
    index; the larger of a count and 1 is a real at least 1, and dividing by it is multiplying by its reciprocal,
    a non-negative real. -/
theorem degree_reciprocal {s si u : Shape} {w : Nat} (d : ScatterDims s si u) (Z : s.Idx → EReal) (hZ : ∀ i, Z i = 0)
    (idx : IVec si w) (O : u.Idx → EReal) (hO : ∀ j, O j = 1) (i : s.Idx) :
    ∃ c : ℝ, 0 ≤ c ∧ Ideal.div 1 (max (Host.scatterAdd (F := Ideal) (φ := .f32) d Z idx O i) 1) = (c : EReal)
      ∧ ∀ a : EReal, Ideal.div a (max (Host.scatterAdd (F := Ideal) (φ := .f32) d Z idx O i) 1) = a * (c : EReal) := by
  have hval : Host.scatterAdd (F := Ideal) (φ := .f32) d Z idx O i
      = (((Finset.univ.filter (fun j => d.resultIdx? j idx = some i)).card : ℝ) : EReal) := by
    show Z i + ∑ j ∈ Finset.univ.filter (fun j => d.resultIdx? j idx = some i), O j = _
    rw [hZ i, zero_add, Finset.sum_congr rfl (fun j _ => hO j)]
    simp
  rw [hval]
  set t : ℝ := ((Finset.univ.filter (fun j => d.resultIdx? j idx = some i)).card : ℝ) with ht
  have hmax : max (t : EReal) 1 = ((max t 1 : ℝ) : EReal) := by
    exact (EReal.coe_strictMono.monotone.map_max (a := t) (b := 1)).symm
  rw [hmax]
  have hpos : (0 : ℝ) < max t 1 := lt_of_lt_of_le one_pos (le_max_right _ _)
  refine ⟨1 / max t 1, by positivity, ?_, ?_⟩
  · rw [Ideal.div_coe hpos.ne', one_mul]
  · intro a
    exact Ideal.div_coe hpos.ne' a

end Cert.Lib.SegmentSum

end
-- ==== Proof.LibVecIndex.lean ====
/-
  A vector gather and a vector accumulation read at an index. For an operand of N entries and one start index per
  result entry (start indices of shape [E, 1]): the gather that collapses the one axis (what x[idx] lowers to for a
  one-dimensional x) reads, at result entry e, the operand's entry at the start index of e read as a signed integer
  and clamped into [0, N - 1]; the accumulating scatter of E updates (what x.at[idx].add(u) and a segment sum lower to)
  holds, at operand entry n, the operand's entry plus the sum of the updates whose index read signed is n, on the
  extended reals. Any extents, any index width.
-/
import Idealize.ShloMosaic.PureOps.Ideal
import Idealize.ShloMosaic.PureOps.Ideal.Laws
import Idealize.ShloMosaic.PureOps.ShapeOps
import Idealize.ShloMosaic.Lib.ValueIdx
import proofs.«129854_j38517266710862_2_alg».proof.Proof.LibRowGather
import proofs.«129854_j38517266710862_2_alg».proof.Proof.LibSegmentSum

noncomputable section

namespace Cert.Lib.VecIndex

open Idealize.ShloMosaic Idealize.ShloMosaic.ValueIdx Cert.Bridge
open scoped BigOperators

variable {α : Type}

/-- The dimension numbers of a vector gather: operand [N], start indices [E, 1], result [E]. -/
abbrev gatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather at e is the operand at the clamped start index of e. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherDims N E wf) x idx (ix1 e) = x (ix1 (RowGather.rowOf hN (idx (ix2 e (0 : Fin 1))))) := by
  -- the one operand coordinate: the clamped start; no batching coordinate, no offset on a collapsed axis
  have h0 : ((gatherDims N E wf).operandIdx (ix1 e) idx 0).val = min (idx (ix2 e (0 : Fin 1))).toInt.toNat (N - 1) := by
    show (gatherDims N E wf).start (ix1 e) idx 0 + (gatherDims N E wf).batchCoord (ix1 e) 0
        + (gatherDims N E wf).offCoord (ix1 e) 0 = _
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 1) ∈ (gatherDims N E wf).startIndexMap from List.mem_singleton.mpr rfl)]
    have hsi : (gatherDims N E wf).siIdx (ix1 e) ⟨List.idxOf (0 : Fin 1) (gatherDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  unfold Host.gather
  congr 1
  funext a
  obtain rfl : a = 0 := Subsingleton.elim _ _
  exact Fin.ext h0

/-- The dimension numbers of a vector accumulation: operand [N], scatter indices [E, 1], updates [E]. -/
abbrev scatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- An index of a vector is its one coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Vec

variable {N E w : Nat} (wf : ScatterDims.WF ⟨1, ![N]⟩ ⟨2, ![E, 1]⟩ ⟨1, ![E]⟩ [] [0] [0] 1)

/-- The window of update e starts at the scatter index of e, read signed. -/
theorem start_vec (idx : IVec ⟨2, ![E, 1]⟩ w) (e : Fin E) :
    (scatterDims N E wf).start (ix1 e) idx 0 = (idx (ix2 e (0 : Fin 1))).toInt := by
  unfold ScatterDims.start
  rw [dif_pos (show (0 : Fin 1) ∈ (scatterDims N E wf).scatterDimsToOperandDims from List.mem_singleton.mpr rfl)]
  have hsi : (scatterDims N E wf).siIdx (ix1 e) ⟨List.idxOf (0 : Fin 1) (scatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted axis: the window coordinate there is 0. -/
theorem window_vec (j : (⟨1, ![E]⟩ : Shape).Idx) : (scatterDims N E wf).window j 0 = 0 := by
  unfold ScatterDims.window
  rw [dif_neg (show (0 : Fin 1) ∉ (scatterDims N E wf).sKept from
    fun h => of_decide_eq_true (List.mem_filter.mp h).2 (List.mem_singleton.mpr rfl))]

/-- Update e lands on operand entry n exactly when its scatter index, read signed, is n. -/
theorem lands_iff_vec (idx : IVec ⟨2, ![E, 1]⟩ w) (e : Fin E) (n : Fin N) :
    (scatterDims N E wf).resultIdx? (ix1 e) idx = some (ix1 n) ↔ (idx (ix2 e (0 : Fin 1))).toInt = (n.val : Int) := by
  refine (Cert.Lib.SegmentSum.resultIdx?_eq_some_iff _ _ _ _).trans ?_
  constructor
  · intro h
    have h0 := h 0
    rw [start_vec, window_vec] at h0
    simp only [Nat.cast_zero, add_zero] at h0
    exact h0
  · intro h a
    obtain rfl : a = 0 := Subsingleton.elim _ _
    rw [start_vec, window_vec]
    simp only [Nat.cast_zero, add_zero]
    exact h

end Vec

/-- The accumulation at n: the operand's entry plus the sum of the updates whose index (read signed) is n. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (u : (⟨1, ![E]⟩ : Shape).Idx → EReal) (n : Fin N) :
    Host.scatterAdd (F := Ideal) (φ := .f32) (scatterDims N E wf) x idx u (ix1 n)
      = x (ix1 n) + ∑ e ∈ Finset.univ.filter (fun e : Fin E => (idx (ix2 e (0 : Fin 1))).toInt = (n.val : Int)), u (ix1 e) := by
  show x (ix1 n) + ∑ j ∈ Finset.univ.filter (fun j => (scatterDims N E wf).resultIdx? j idx = some (ix1 n)), u j = _
  congr 1
  rw [Finset.sum_filter, sum_idx1, Finset.sum_filter]
  refine Finset.sum_congr rfl (fun e _ => ?_)
  simp only [lands_iff_vec]

end Cert.Lib.VecIndex

end
-- ==== Proof.Law.lean ====
/-
  The one algebraic law that joins the two programs.

  A node's degree is deg = 1 + (the number of edges that end at the node): an accumulation of ones, one per edge, into
  an array of ones. The kernel scales a node's own row by rsqrt(deg) · rsqrt(deg), the reference by 1 / deg. On the
  extended reals these agree at every positive argument: at a real r > 0, (√r)⁻¹ · (√r)⁻¹ = (√r · √r)⁻¹ = r⁻¹, and at
  ⊤ both sides are 0. The degree is positive, being 1 plus a sum of ones. The reference recomputes the degree in each
  of its three layers by the same operations; the law is stated once for each.
-/
import proofs.«129854_j38517266710862_2_alg».proof.Proof.Gen.ReferenceIdeal.Read
import proofs.«129854_j38517266710862_2_alg».proof.Proof.LibVecIndex
import Idealize.ShloMosaic.PureOps.Ideal
import Idealize.ShloMosaic.Lib.ValueIdx
import Idealize.ShloMosaic.Lib.IdealHost

noncomputable section

open scoped BigOperators

namespace Cert.Bridge.Law

open Cert.ReferenceIdeal
open Idealize.ShloMosaic Idealize.ShloMosaic.ValueIdx

/-- The reciprocal square root times itself is the reciprocal, at every positive extended real. -/
theorem rsqrt_mul_self (d : EReal) (hd : 0 < d) : Ideal.rsqrt d * Ideal.rsqrt d = Ideal.div 1 d := by
  induction d using EReal.rec with
  | bot => exact absurd hd (not_lt.mpr bot_le)
  | top =>
    rw [Ideal.rsqrt_top, mul_zero]
    unfold Ideal.div
    rw [if_neg EReal.top_ne_zero, EReal.inv_top, mul_zero]
  | coe r =>
    have hr : 0 < r := EReal.coe_pos.mp hd
    rw [Ideal.rsqrt_coe, if_neg (not_lt.mpr hr.le), if_neg hr.ne', Ideal.div_coe hr.ne', one_mul, ← EReal.coe_mul]
    congr 1
    rw [← mul_inv, Real.mul_self_sqrt hr.le, one_div]

/-- An accumulation of ones into an array of ones is positive at every entry: 1 plus a sum of ones. -/
theorem scatter_ones_pos {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (u : (⟨1, ![E]⟩ : Shape).Idx → EReal)
    (hx : ∀ i, x i = 1) (hu : ∀ j, u j = 1) (n : Fin N) :
    0 < Host.scatterAdd (F := Ideal) (φ := .f32) (Cert.Lib.VecIndex.scatterDims N E wf) x idx u (ix1 n) := by
  rw [Cert.Lib.VecIndex.scatterAdd_vec_apply, hx]
  have h0 : (0 : EReal) ≤ ∑ e ∈ Finset.univ.filter (fun e : Fin E => (idx (ix2 e (0 : Fin 1))).toInt = (n.val : Int)), u (ix1 e) :=
    Finset.sum_nonneg fun e _ => by rw [hu]; exact zero_le_one
  exact lt_of_lt_of_le zero_lt_one (le_add_of_nonneg_right h0)

/-- The degree of the first layer is positive. -/
theorem deg_pos (x1 : (⟨S2x3200000, .i32⟩ : BufTy).Contents (Elt Ideal)) (p : Fin 100000) :
    0 < Cert.ReferenceIdeal.Read.val_main_v13 (F := Ideal) x1 (ix1 p) :=
  scatter_ones_pos (N := 100000) (E := 3200000) (w := 32) scatter_S100000_S3200000x1_S3200000_n_0_0_1.wf
    (Cert.ReferenceIdeal.Read.val_main_v5 (F := Ideal)) (Cert.ReferenceIdeal.Read.val_main_v11 (F := Ideal) x1)
    (Cert.ReferenceIdeal.Read.val_main_v12 (F := Ideal)) (fun _ => Ideal.ofBits_one_f32) (fun _ => Ideal.ofBits_one_f32) p

/-- The degree of the second layer is positive. -/
theorem deg_pos2 (x1 : (⟨S2x3200000, .i32⟩ : BufTy).Contents (Elt Ideal)) (p : Fin 100000) :
    0 < Cert.ReferenceIdeal.Read.val_main_v62 (F := Ideal) x1 (ix1 p) :=
  scatter_ones_pos (N := 100000) (E := 3200000) (w := 32) scatter_S100000_S3200000x1_S3200000_n_0_0_1.wf
    (Cert.ReferenceIdeal.Read.val_main_v54 (F := Ideal)) (Cert.ReferenceIdeal.Read.val_main_v60 (F := Ideal) x1)
    (Cert.ReferenceIdeal.Read.val_main_v61 (F := Ideal)) (fun _ => Ideal.ofBits_one_f32) (fun _ => Ideal.ofBits_one_f32) p

/-- The degree of the third layer is positive. -/
theorem deg_pos3 (x1 : (⟨S2x3200000, .i32⟩ : BufTy).Contents (Elt Ideal)) (p : Fin 100000) :
    0 < Cert.ReferenceIdeal.Read.val_main_v111 (F := Ideal) x1 (ix1 p) :=
  scatter_ones_pos (N := 100000) (E := 3200000) (w := 32) scatter_S100000_S3200000x1_S3200000_n_0_0_1.wf
    (Cert.ReferenceIdeal.Read.val_main_v103 (F := Ideal)) (Cert.ReferenceIdeal.Read.val_main_v109 (F := Ideal) x1)
    (Cert.ReferenceIdeal.Read.val_main_v110 (F := Ideal)) (fun _ => Ideal.ofBits_one_f32) (fun _ => Ideal.ofBits_one_f32) p

/-- First layer: the kernel's scale rsqrt(deg) · rsqrt(deg) is the reference's 1 / deg. -/
theorem scale_eq (x1 : (⟨S2x3200000, .i32⟩ : BufTy).Contents (Elt Ideal)) (p : Fin 100000) :
    Cert.ReferenceIdeal.Read.val_main_v14 (F := Ideal) x1 (ix1 p) * Cert.ReferenceIdeal.Read.val_main_v14 (F := Ideal) x1 (ix1 p)
      = Cert.ReferenceIdeal.Read.val_main_v44 (F := Ideal) x1 (ix1 p) := by
  rw [Cert.ReferenceIdeal.Read.val_main_v14_apply, Cert.ReferenceIdeal.Read.val_main_v44_apply,
    Cert.ReferenceIdeal.Read.val_main_v43_apply, Cert.ReferenceIdeal.Read.val_main_cst_9_apply,
    Ideal.hostUnary_rsqrt_def, Ideal.hostDivf_def, Ideal.ofBits_def, Ideal.ofBits_one_f32]
  exact rsqrt_mul_self _ (deg_pos x1 p)

/-- Second layer: likewise. -/
theorem scale_eq2 (x1 : (⟨S2x3200000, .i32⟩ : BufTy).Contents (Elt Ideal)) (p : Fin 100000) :
    Cert.ReferenceIdeal.Read.val_main_v63 (F := Ideal) x1 (ix1 p) * Cert.ReferenceIdeal.Read.val_main_v63 (F := Ideal) x1 (ix1 p)
      = Cert.ReferenceIdeal.Read.val_main_v93 (F := Ideal) x1 (ix1 p) := by
  rw [Cert.ReferenceIdeal.Read.val_main_v63_apply, Cert.ReferenceIdeal.Read.val_main_v93_apply,
    Cert.ReferenceIdeal.Read.val_main_v92_apply, Cert.ReferenceIdeal.Read.val_main_cst_21_apply,
    Ideal.hostUnary_rsqrt_def, Ideal.hostDivf_def, Ideal.ofBits_def, Ideal.ofBits_one_f32]
  exact rsqrt_mul_self _ (deg_pos2 x1 p)

/-- Third layer: likewise. -/
theorem scale_eq3 (x1 : (⟨S2x3200000, .i32⟩ : BufTy).Contents (Elt Ideal)) (p : Fin 100000) :
    Cert.ReferenceIdeal.Read.val_main_v112 (F := Ideal) x1 (ix1 p) * Cert.ReferenceIdeal.Read.val_main_v112 (F := Ideal) x1 (ix1 p)
      = Cert.ReferenceIdeal.Read.val_main_v142 (F := Ideal) x1 (ix1 p) := by
  rw [Cert.ReferenceIdeal.Read.val_main_v112_apply, Cert.ReferenceIdeal.Read.val_main_v142_apply,
    Cert.ReferenceIdeal.Read.val_main_v141_apply, Cert.ReferenceIdeal.Read.val_main_cst_33_apply,
    Ideal.hostUnary_rsqrt_def, Ideal.hostDivf_def, Ideal.ofBits_def, Ideal.ofBits_one_f32]
  exact rsqrt_mul_self _ (deg_pos3 x1 p)

end Cert.Bridge.Law

end
-- ==== Proof.Stage2.lean ====
/-
  The first clamped layer and the second product: the kernel's region against the reference's stages.

  At the reference's own inputs — its edge sum, its product x · W1, the kernel's scale column rsqrt(deg) · rsqrt(deg)
  and the bias as a row — the region's whole-array function is, at (p, q), the sum over k of
  max((agg[p, k] + h[p, k] · s[p]) + b[k], 0) · W[k, q]. The reference computes the same entry one operation at a
  time: a product whose left factor at (p, k) is the maximum with a constant 0 of the sum of the edge sum, of h times
  1 / deg repeated along the row, and of the bias repeated down the column. The two scales agree because
  rsqrt(deg) · rsqrt(deg) = 1 / deg at a positive degree; everything else is the same term once each repeated array is
  read at the index it repeats.
-/
import proofs.«129854_j38517266710862_2_alg».proof.Proof.Fold
import proofs.«129854_j38517266710862_2_alg».proof.Proof.Law
import proofs.«129854_j38517266710862_2_alg».proof.Proof.LibColumn
import proofs.«129854_j38517266710862_2_alg».proof.Proof.Gen.ReferenceIdeal.Read
import proofs.«129854_j38517266710862_2_alg».proof.Proof.Region1
import Idealize.ShloMosaic.Lib.ValueLayout

set_option maxRecDepth 16384

noncomputable section

open scoped BigOperators

namespace Cert.Bridge.Stage2

open Idealize.ShloMosaic Idealize.ShloMosaic.ValueIdx
open Cert.ReferenceIdeal.Read

/-- The product's left factor at output (p, q) and contracted coordinate k sits at (p, k). -/
theorem lidx (p : Fin 100000) (q k : Fin 64) : lidx_main_v53 (ix2 p q) k = ix2 p k :=
  funext fun a => Fin.ext (by match a with | ⟨0, _⟩ => rfl | ⟨1, _⟩ => rfl)

/-- Its right factor sits at (k, q). -/
theorem ridx (p : Fin 100000) (q k : Fin 64) : ridx_main_v53 (ix2 p q) k = ix2 k q :=
  funext fun a => Fin.ext (by match a with | ⟨0, _⟩ => rfl | ⟨1, _⟩ => rfl)

/-- The scale repeated along row p is read at node p. -/
theorem sidx (p : Fin 100000) (k : Fin 64) : idx_main_v45 (idx_main_v46 (ix2 p k)) = ix1 p :=
  funext fun a => Fin.ext (by match a with | ⟨0, _⟩ => rfl)

/-- The bias repeated down column k is read at feature k. -/
theorem bidx (p : Fin 100000) (k : Fin 64) : idx_main_v49 (idx_main_v50 (ix2 p k)) = ix1 k :=
  funext fun a => Fin.ext (by match a with | ⟨0, _⟩ => rfl)

/-- The clamp's constant is 0 at every index. -/
theorem zero_apply (i : Cert.ReferenceIdeal.S100000x64.Idx) : (val_main_call0_v0 (F := Ideal) i : EReal) = 0 := by
  rw [val_main_call0_v0_apply, val_main_call0_cst_apply, Ideal.ofBits_def, Ideal.ofBits_zero_f32]

/-- The kernel's scale column at node p is the reference's 1 / deg at p. -/
theorem scale_apply (x1 : (⟨Cert.ReferenceIdeal.S2x3200000, .i32⟩ : BufTy).Contents (Elt Ideal)) (p : Fin 100000) :
    Cert.KernelIdeal.Fold.scaleCol x1 (ix2 p (0 : Fin 1)) = val_main_v44 (F := Ideal) x1 (ix1 p) := by
  unfold Cert.KernelIdeal.Fold.scaleCol
  refine (Cert.Lib.Column.shapeCast_a_a1_apply (Cert.KernelIdeal.Fold.selfScale x1) _ p 0).trans ?_
  exact Cert.Bridge.Law.scale_eq x1 p

/-- The kernel's bias row at column k is the bias at k. -/
theorem bias_apply (x3 : (⟨Cert.ReferenceIdeal.S64, .f32⟩ : BufTy).Contents (Elt Ideal)) (k : Fin 64) :
    Cert.KernelIdeal.Fold.biasRow64 x3 (ix2 (0 : Fin 1) k) = x3 (ix1 k) := by
  unfold Cert.KernelIdeal.Fold.biasRow64
  exact shapeCast_a_1a_apply x3 _ 0 k

/-- The region's function of the reference's layer-1 inputs is the reference's stage after the second product. -/
theorem layer (x0 : (⟨Cert.ReferenceIdeal.S100000x5, .f32⟩ : BufTy).Contents (Elt Ideal)) (x1 : (⟨Cert.ReferenceIdeal.S2x3200000, .i32⟩ : BufTy).Contents (Elt Ideal)) (x2 : (⟨Cert.ReferenceIdeal.S5x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) :
    Cert.KernelIdeal.Region1.G (Cert.ReferenceIdeal.Read.val_main_v42 (F := Ideal) x0 x1 x2) (Cert.ReferenceIdeal.Read.val_main_v4 (F := Ideal) x0 x2) (Cert.KernelIdeal.Fold.scaleCol x1) (Cert.KernelIdeal.Fold.biasRow64 x3) x4
      = Cert.ReferenceIdeal.Read.val_main_v53 (F := Ideal) x0 x1 x2 x3 x4 := by
  funext i
  obtain ⟨p, q, rfl⟩ : ∃ (p : Fin 100000) (q : Fin 64), i = ix2 p q := ⟨i 0, i 1, eq_ix2 i⟩
  rw [Cert.KernelIdeal.Region1.G_ix2, val_main_v53_apply]
  unfold Cert.Spec.fused Cert.Spec.pre
  refine Finset.sum_congr rfl fun k _ => ?_
  rw [lidx, ridx]
  refine congrArg₂ (fun a b : EReal => a * b) ?_ rfl
  rw [val_main_v52_apply, Ideal.maximumf_def, zero_apply]
  refine congrArg (fun a : EReal => max a 0) ?_
  rw [val_main_v51_apply, Ideal.addf_def, val_main_v48_apply, Ideal.addf_def, val_main_v47_apply, Ideal.mulf_def]
  refine congrArg₂ (fun a b : EReal => a + b) ?_ ?_
  · refine congrArg₂ (fun a b : EReal => a + b) rfl ?_
    refine congrArg₂ (fun a b : EReal => a * b) rfl ?_
    rw [scale_apply, val_main_v46_apply, val_main_v45_apply, sidx]
  · rw [bias_apply, val_main_v50_apply, val_main_v49_apply, bidx]

end Cert.Bridge.Stage2

end
-- ==== Proof.Stage3.lean ====
/-
  The second clamped layer and the last product: the kernel's region against the reference's stages.

  At the reference's own inputs — its second edge sum, its first layer's result, the kernel's scale column
  rsqrt(deg) · rsqrt(deg) and the second bias as a row — the region's whole-array function is, at (p, q), the sum over
  k of max((agg[p, k] + h[p, k] · s[p]) + b[k], 0) · W[k, q] with W the 64 × 2 matrix. The reference computes the
  same entry one operation at a time: a product whose left factor at (p, k) is the maximum with a constant 0 of the sum
  of the edge sum, of h times 1 / deg repeated along the row, and of the bias repeated down the column. The reference
  forms the degree and its reciprocal square root again in this layer by the same operations on the same edge list, so
  they are the first layer's; the two scales then agree because rsqrt(deg) · rsqrt(deg) = 1 / deg at a positive degree.
-/
import proofs.«129854_j38517266710862_2_alg».proof.Proof.Fold
import proofs.«129854_j38517266710862_2_alg».proof.Proof.Law
import proofs.«129854_j38517266710862_2_alg».proof.Proof.LibColumn
import proofs.«129854_j38517266710862_2_alg».proof.Proof.Gen.ReferenceIdeal.Read
import proofs.«129854_j38517266710862_2_alg».proof.Proof.Region2
import Idealize.ShloMosaic.Lib.ValueLayout

set_option maxRecDepth 16384

noncomputable section

open scoped BigOperators

namespace Cert.Bridge.Stage3

open Idealize.ShloMosaic Idealize.ShloMosaic.ValueIdx
open Cert.ReferenceIdeal.Read

/-- The product's left factor at output (p, q) and contracted coordinate k sits at (p, k). -/
theorem lidx (p : Fin 100000) (q : Fin 2) (k : Fin 64) : lidx_main_v102 (ix2 p q) k = ix2 p k :=
  funext fun a => Fin.ext (by match a with | ⟨0, _⟩ => rfl | ⟨1, _⟩ => rfl)

/-- Its right factor sits at (k, q). -/
theorem ridx (p : Fin 100000) (q : Fin 2) (k : Fin 64) : ridx_main_v102 (ix2 p q) k = ix2 k q :=
  funext fun a => Fin.ext (by match a with | ⟨0, _⟩ => rfl | ⟨1, _⟩ => rfl)

/-- The scale repeated along row p is read at node p. -/
theorem sidx (p : Fin 100000) (k : Fin 64) : idx_main_v94 (idx_main_v95 (ix2 p k)) = ix1 p :=
  funext fun a => Fin.ext (by match a with | ⟨0, _⟩ => rfl)

/-- The bias repeated down column k is read at feature k. -/
theorem bidx (p : Fin 100000) (k : Fin 64) : idx_main_v98 (idx_main_v99 (ix2 p k)) = ix1 k :=
  funext fun a => Fin.ext (by match a with | ⟨0, _⟩ => rfl)

/-- The clamp's constant is 0 at every index. -/
theorem zero_apply (i : Cert.ReferenceIdeal.S100000x64.Idx) : (val_main_call1_v0 (F := Ideal) i : EReal) = 0 := by
  rw [val_main_call1_v0_apply, val_main_call1_cst_apply, Ideal.ofBits_def, Ideal.ofBits_zero_f32]

/-- The second layer's reciprocal square root of the degree is the first layer's: the same operations on the same
    edge list. -/
theorem rs2 (x1 : (⟨Cert.ReferenceIdeal.S2x3200000, .i32⟩ : BufTy).Contents (Elt Ideal)) :
    val_main_v63 (F := Ideal) x1 = val_main_v14 (F := Ideal) x1 := rfl

/-- The kernel's scale column at node p is the reference's second-layer 1 / deg at p. -/
theorem scale_apply (x1 : (⟨Cert.ReferenceIdeal.S2x3200000, .i32⟩ : BufTy).Contents (Elt Ideal)) (p : Fin 100000) :
    Cert.KernelIdeal.Fold.scaleCol x1 (ix2 p (0 : Fin 1)) = val_main_v93 (F := Ideal) x1 (ix1 p) := by
  unfold Cert.KernelIdeal.Fold.scaleCol
  refine (Cert.Lib.Column.shapeCast_a_a1_apply (Cert.KernelIdeal.Fold.selfScale x1) _ p 0).trans ?_
  refine Eq.trans ?_ (Cert.Bridge.Law.scale_eq2 x1 p)
  rw [rs2]
  rfl

/-- The kernel's bias row at column k is the bias at k. -/
theorem bias_apply (x5 : (⟨Cert.ReferenceIdeal.S64, .f32⟩ : BufTy).Contents (Elt Ideal)) (k : Fin 64) :
    Cert.KernelIdeal.Fold.biasRow64 x5 (ix2 (0 : Fin 1) k) = x5 (ix1 k) := by
  unfold Cert.KernelIdeal.Fold.biasRow64
  exact shapeCast_a_1a_apply x5 _ 0 k

/-- The region's function of the reference's layer-2 inputs is the reference's stage after the last product. -/
theorem layer (x0 : (⟨Cert.ReferenceIdeal.S100000x5, .f32⟩ : BufTy).Contents (Elt Ideal)) (x1 : (⟨Cert.ReferenceIdeal.S2x3200000, .i32⟩ : BufTy).Contents (Elt Ideal)) (x2 : (⟨Cert.ReferenceIdeal.S5x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x2, .f32⟩ : BufTy).Contents (Elt Ideal)) :
    Cert.KernelIdeal.Region2.G (Cert.ReferenceIdeal.Read.val_main_v91 (F := Ideal) x0 x1 x2 x3 x4) (Cert.ReferenceIdeal.Read.val_main_v53 (F := Ideal) x0 x1 x2 x3 x4) (Cert.KernelIdeal.Fold.scaleCol x1) (Cert.KernelIdeal.Fold.biasRow64 x5) x6
      = Cert.ReferenceIdeal.Read.val_main_v102 (F := Ideal) x0 x1 x2 x3 x4 x5 x6 := by
  funext i
  obtain ⟨p, q, rfl⟩ : ∃ (p : Fin 100000) (q : Fin 2), i = ix2 p q := ⟨i 0, i 1, eq_ix2 i⟩
  rw [Cert.KernelIdeal.Region2.G_ix2, val_main_v102_apply]
  unfold Cert.Spec.fused Cert.Spec.pre
  refine Finset.sum_congr rfl fun k _ => ?_
  rw [lidx, ridx]
  refine congrArg₂ (fun a b : EReal => a * b) ?_ rfl
  rw [val_main_v101_apply, Ideal.maximumf_def, zero_apply]
  refine congrArg (fun a : EReal => max a 0) ?_
  rw [val_main_v100_apply, Ideal.addf_def, val_main_v97_apply, Ideal.addf_def, val_main_v96_apply, Ideal.mulf_def]
  refine congrArg₂ (fun a b : EReal => a + b) ?_ ?_
  · refine congrArg₂ (fun a b : EReal => a + b) rfl ?_
    refine congrArg₂ (fun a b : EReal => a * b) rfl ?_
    rw [scale_apply, val_main_v95_apply, val_main_v94_apply, sidx]
  · rw [bias_apply, val_main_v99_apply, val_main_v98_apply, bidx]

end Cert.Bridge.Stage3

end
-- ==== Proof.Stage4.lean ====
/-
  The last layer: the kernel's combination is the reference's.

  The last kernel region leaves (agg[p, q] + h[p, q] · s[p, 0]) + b[0, q], where agg is the edge sum, h the product of
  the previous layer's result with the last weights, s the column of the nodes' own scales rsqrt(deg) · rsqrt(deg)
  and b the bias as a row. The reference computes (agg[p, q] + h[p, q] · (1 / deg)[p]) + bias[q], the scale and the
  bias each broadcast twice to the array's shape. The two agree entry by entry: the column read at (p, 0) and the two
  broadcasts read at (p, q) are both the node's entry p, where rsqrt(deg) · rsqrt(deg) = 1 / deg because deg is
  positive; the row read at (0, q) and the bias's two broadcasts read at (p, q) are both the bias's entry q.
-/
import proofs.«129854_j38517266710862_2_alg».proof.Proof.Fold
import proofs.«129854_j38517266710862_2_alg».proof.Proof.Law
import proofs.«129854_j38517266710862_2_alg».proof.Proof.LibColumn
import proofs.«129854_j38517266710862_2_alg».proof.Proof.Region3
import proofs.«129854_j38517266710862_2_alg».proof.Proof.Gen.ReferenceIdeal.Read
import Idealize.ShloMosaic.Lib.ValueLayout

noncomputable section

open scoped BigOperators

namespace Cert.Bridge.Stage4

open Idealize.ShloMosaic Idealize.ShloMosaic.ValueIdx

/-- The third layer's inverse square root of the degree is the first layer's: the same operations on edge_index. -/
theorem rs3 (x1 : (⟨Cert.ReferenceIdeal.S2x3200000, .i32⟩ : BufTy).Contents (Elt Ideal)) :
    Cert.ReferenceIdeal.Read.val_main_v112 (F := Ideal) x1 = Cert.ReferenceIdeal.Read.val_main_v14 (F := Ideal) x1 := rfl

/-- The scale column at (p, 0) is the reference's 1 / deg at the node both of its broadcasts read at (p, q): node p. -/
theorem scale_at (x1 : (⟨Cert.ReferenceIdeal.S2x3200000, .i32⟩ : BufTy).Contents (Elt Ideal)) (p : Fin 100000) (q : Fin 2) :
    Cert.KernelIdeal.Fold.scaleCol x1 (ix2 p (0 : Fin 1))
      = Cert.ReferenceIdeal.Read.val_main_v142 (F := Ideal) x1
          (Cert.ReferenceIdeal.Read.idx_main_v143 (Cert.ReferenceIdeal.Read.idx_main_v144 (ix2 p q))) := by
  have hi : Cert.ReferenceIdeal.Read.idx_main_v143 (Cert.ReferenceIdeal.Read.idx_main_v144 (ix2 p q)) = ix1 p :=
    funext fun a => Fin.ext (by match a with | ⟨0, _⟩ => rfl)
  rw [hi, ← Cert.Bridge.Law.scale_eq3 x1 p, rs3 x1]
  unfold Cert.KernelIdeal.Fold.scaleCol
  refine (Cert.Lib.Column.shapeCast_a_a1_apply _ _ p (0 : Fin 1)).trans ?_
  unfold Cert.KernelIdeal.Fold.selfScale
  rfl

/-- The bias row at (0, q) is the bias at the entry both of its broadcasts read at (p, q): entry q. -/
theorem bias_at (x7 : (⟨Cert.ReferenceIdeal.S2, .f32⟩ : BufTy).Contents (Elt Ideal)) (p : Fin 100000) (q : Fin 2) :
    Cert.KernelIdeal.Fold.biasRow2 x7 (ix2 (0 : Fin 1) q)
      = x7 (Cert.ReferenceIdeal.Read.idx_main_v147 (Cert.ReferenceIdeal.Read.idx_main_v148 (ix2 p q))) := by
  have hi : Cert.ReferenceIdeal.Read.idx_main_v147 (Cert.ReferenceIdeal.Read.idx_main_v148 (ix2 p q)) = ix1 q :=
    funext fun a => Fin.ext (by match a with | ⟨0, _⟩ => rfl)
  rw [hi]
  unfold Cert.KernelIdeal.Fold.biasRow2
  exact shapeCast_a_1a_apply _ _ (0 : Fin 1) q

/-- The last region's result, at the reference's edge sum and product and at the kernel's scale column and bias row,
    is the reference's last stage. -/
theorem layer (x0 : (⟨Cert.ReferenceIdeal.S100000x5, .f32⟩ : BufTy).Contents (Elt Ideal)) (x1 : (⟨Cert.ReferenceIdeal.S2x3200000, .i32⟩ : BufTy).Contents (Elt Ideal)) (x2 : (⟨Cert.ReferenceIdeal.S5x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x2, .f32⟩ : BufTy).Contents (Elt Ideal)) (x7 : (⟨Cert.ReferenceIdeal.S2, .f32⟩ : BufTy).Contents (Elt Ideal)) :
    Cert.KernelIdeal.Region3.G (Cert.ReferenceIdeal.Read.val_main_v140 (F := Ideal) x0 x1 x2 x3 x4 x5 x6) (Cert.ReferenceIdeal.Read.val_main_v102 (F := Ideal) x0 x1 x2 x3 x4 x5 x6) (Cert.KernelIdeal.Fold.scaleCol x1) (Cert.KernelIdeal.Fold.biasRow2 x7)
      = Cert.ReferenceIdeal.Read.val_main_v149 (F := Ideal) x0 x1 x2 x3 x4 x5 x6 x7 := by
  funext i
  obtain ⟨p, q, rfl⟩ : ∃ (p : Fin 100000) (q : Fin 2), i = ix2 p q := ⟨i 0, i 1, eq_ix2 i⟩
  rw [Cert.KernelIdeal.Region3.G_ix2]
  unfold Cert.Spec.pre
  rw [Cert.ReferenceIdeal.Read.val_main_v149_apply, Cert.ReferenceIdeal.Read.val_main_v146_apply,
    Cert.ReferenceIdeal.Read.val_main_v145_apply, Cert.ReferenceIdeal.Read.val_main_v144_apply,
    Cert.ReferenceIdeal.Read.val_main_v143_apply, Cert.ReferenceIdeal.Read.val_main_v148_apply,
    Cert.ReferenceIdeal.Read.val_main_v147_apply, Ideal.addf_def, Ideal.addf_def, Ideal.mulf_def]
  refine congrArg₂ (fun a b : EReal => a + b) ?_ ?_
  · refine congrArg₂ (fun a b : EReal => a + b) rfl ?_
    refine congrArg₂ (fun a b : EReal => a * b) rfl ?_
    exact scale_at x1 p q
  · exact bias_at x7 p q

end Cert.Bridge.Stage4

end
-- ==== Proof.Chain.lean ====
/-
  The idealized kernel's result buffer holds the reference's result term of the same arguments.

  Layer by layer: region 0 leaves the reference's x · W1; given that, the second stretch forms the reference's edge
  sum, and region 1 — the clamped layer fused with the next product — leaves the reference's second product; the same
  again for region 2; and region 3, the last layer without clamp, leaves the reference's result.
-/
import proofs.«129854_j38517266710862_2_alg».proof.Proof.Fold
import proofs.«129854_j38517266710862_2_alg».proof.Proof.Region0
import proofs.«129854_j38517266710862_2_alg».proof.Proof.Stage1
import proofs.«129854_j38517266710862_2_alg».proof.Proof.Region1
import proofs.«129854_j38517266710862_2_alg».proof.Proof.Region2
import proofs.«129854_j38517266710862_2_alg».proof.Proof.Region3
import proofs.«129854_j38517266710862_2_alg».proof.Proof.Stage2
import proofs.«129854_j38517266710862_2_alg».proof.Proof.Stage3
import proofs.«129854_j38517266710862_2_alg».proof.Proof.Stage4

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- After region 0 its result buffer holds the reference's x · W1. -/
theorem h1 : W2 m ρ c (Proc.devRef .tc main_v30) = Cert.ReferenceIdeal.Read.val_main_v4 (F := Ideal) (m ((c : Thread nD τ).loc main_arg0)) (m ((c : Thread nD τ).loc main_arg2)) := by
  refine (W2_arr m ρ c 2).trans ((Region0.final (V1 m ρ) c).trans ?_)
  rw [Fold.V1_x m ρ c, Fold.V1_w m ρ c]
  exact Cert.Bridge.Stage1.layer _ _

/-- After region 1 its result buffer holds the reference's second product. -/
theorem h2 : W4 m ρ c (Proc.devRef .tc main_v48) = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 5).trans ((Region1.final (V3 m ρ) c).trans ?_)
  rw [Fold.V3_agg m ρ c (h1 m ρ c), Fold.V3_h m ρ c, h1 m ρ c, Fold.V3_scale m ρ c, Fold.V3_bias m ρ c, Fold.V3_w m ρ c]
  exact Cert.Bridge.Stage2.layer _ _ _ _ _

/-- After region 2 its result buffer holds the reference's third product. -/
theorem h3 : W6 m ρ c (Proc.devRef .tc main_v66) = Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 5).trans ((Region2.final (V5 m ρ) c).trans ?_)
  rw [Fold.V5_agg m ρ c (h2 m ρ c), Fold.V5_h m ρ c, h2 m ρ c, Fold.V5_scale m ρ c, Fold.V5_bias m ρ c, Fold.V5_w m ρ c]
  exact Cert.Bridge.Stage3.layer _ _ _ _ _ _ _

/-- After region 3 the result buffer holds the reference's result. -/
theorem out : W8 m ρ c (Proc.devRef .tc main_v84) = Cert.ReferenceIdeal.Read.val_main_v149 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 4).trans ((Region3.final (V7 m ρ) c).trans ?_)
  rw [Fold.V7_agg m ρ c (h3 m ρ c), Fold.V7_h m ρ c, h3 m ρ c, Fold.V7_scale m ρ c, Fold.V7_bias m ρ c]
  exact Cert.Bridge.Stage4.layer _ _ _ _ _ _ _ _

end Cert.KernelIdeal.Chain

end
-- ==== Proof.lean ====
/-
  A three-layer graph convolution over 100000 nodes and 3200000 edges: the kernel against its reference, on the
  extended reals.

  Both programs compute, layer by layer, h = H · W; deg = 1 + (the number of edges ending at each node); the per-edge
  coefficient rsqrt(deg)[src] · rsqrt(deg)[dst]; the edge sum agg[p] = Σ over edges e ending at p of
  h[src e] · coef e; and out = (agg + h · s) + b, clamped at zero after the first two layers. They differ in three
  ways, none of which changes a value on the extended reals. The kernel forms the dense pieces (the first product;
  each clamped layer fused with the next product; the last layer) in 20 row blocks of 5000 nodes on the matrix unit,
  where the reference applies one whole product: the blocks tile the arrays and each entry is the same sum over k.
  The kernel narrows h to bf16 around the row gather and widens it back: the identity here. And the kernel scales a
  node's own row by s = rsqrt(deg) · rsqrt(deg) where the reference uses 1 / deg: equal because deg ≥ 1 > 0, and
  rsqrt(d)² = 1 / d for every positive extended real d (for d = ⊤ both sides are 0). The gathers, the scatter-adds and
  the index arithmetic on edge_index are the same operations in both programs and are never opened. No finiteness of
  the inputs is used.

  The three frames are the generated ones (the reference's is its generated run with the result dropped); the
  idealization rewrote nothing, so `preserves` is trivial; `algebraic` pairs the kernel's run, with its result buffer
  named (Proof/KernelRun.lean) and identified with the reference's result term (Proof/Chain.lean), with the
  reference's generated run.
-/
import proofs.«129854_j38517266710862_2_alg».proof.Defs
import proofs.«129854_j38517266710862_2_alg».proof.Proof.Gen.Kernel
import proofs.«129854_j38517266710862_2_alg».proof.Proof.Gen.Kernel.Skeleton
import proofs.«129854_j38517266710862_2_alg».proof.Proof.Gen.Kernel.Launch
import proofs.«129854_j38517266710862_2_alg».proof.Proof.Gen.Kernel.Points
import proofs.«129854_j38517266710862_2_alg».proof.Proof.Gen.Kernel.Frame
import proofs.«129854_j38517266710862_2_alg».proof.Proof.Gen.KernelIdeal
import proofs.«129854_j38517266710862_2_alg».proof.Proof.Gen.KernelIdeal.Skeleton
import proofs.«129854_j38517266710862_2_alg».proof.Proof.Gen.KernelIdeal.Launch
import proofs.«129854_j38517266710862_2_alg».proof.Proof.Gen.KernelIdeal.Points
import proofs.«129854_j38517266710862_2_alg».proof.Proof.Gen.KernelIdeal.Frame
import proofs.«129854_j38517266710862_2_alg».proof.Proof.Gen.ReferenceIdeal
import proofs.«129854_j38517266710862_2_alg».proof.Proof.Gen.Pre_finite_inputs
import proofs.«129854_j38517266710862_2_alg».proof.Proof.Gen.ReferenceIdeal.Run
import proofs.«129854_j38517266710862_2_alg».proof.Proof.Gen.ReferenceIdeal.Read
import proofs.«129854_j38517266710862_2_alg».proof.Proof.KernelRun
import proofs.«129854_j38517266710862_2_alg».proof.Proof.Chain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs run, and the kernel's result buffer ends at the
    reference's result term of those arguments. -/
theorem algebraic : Cert.algebraic_KernelIdeal_ReferenceIdeal := by
  intro m ρ m' ρ' _ hagree
  refine ⟨fun c => Cert.KernelIdeal.Gen.W8 m ρ c (Proc.devRef .tc Cert.KernelIdeal.main_v84),
    Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v149_eq]
  obtain ⟨e0, e1, e2, e3, e4, e5, e6, e7⟩ := hagree c
  rw [e0, e1, e2, e3, e4, e5, e6, e7]
  exact (Cert.KernelIdeal.Chain.out m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
